-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v106)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v106) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v106) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S50000 : Shape := ⟨1, ![50000]⟩
abbrev S800000 : Shape := ⟨1, ![800000]⟩
abbrev S64x64 : Shape := ⟨2, ![64, 64]⟩
abbrev S64 : Shape := ⟨1, ![64]⟩
abbrev S64x10 : Shape := ⟨2, ![64, 10]⟩
abbrev S10 : Shape := ⟨1, ![10]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000 : S_.BroadcastsInDim S800000 (![] : Fin 0 → Fin S800000.rank)
  reducesTo_S800000_S_d0 : S800000.ReducesTo [0] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x10 : S_.BroadcastsInDim S64x10 (![] : Fin 0 → Fin S64x10.rank)
  reducesTo_S64x10_S_d0_1 : S64x10.ReducesTo [0, 1] S_
  bcast_S_S10 : S_.BroadcastsInDim S10 (![] : Fin 0 → Fin S10.rank)
  reducesTo_S10_S_d0 : S10.ReducesTo [0] S_

variable [Facts]

def fn_part2 {F : FTy → Type} [FloatOps F] (main_arg9 : FVec F S64 .f32) (main_arg10 : FVec F S64x10 .f32) (main_arg11 : FVec F S10 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x10 .f32 := Host.absf main_arg10
  let main_cst_14 : FVec F S_ .f32 := constant S_ .f32 0x7F800000#32
  let main_v40 : FVec F S64x10 .f32 := broadcastInDim S64x10 ![] bcast_S_S64x10 main_cst_14
  let main_v41 : IVec S64x10 1 := cmpf .olt main_v39 main_v40
  let main_c_15 : IVec S_ 1 := constantI S_ 1 1#1
  let main_v42 : IVec S_ 1 := (fun x v => Host.reduce IntOp.andi x v reducesTo_S64x10_S_d0_1 h_S_) main_v41 main_c_15
  let main_v43 : IVec S_ 1 := andi main_v38 main_v42
  let main_v44 : FVec F S10 .f32 := Host.absf main_arg11
  let main_cst_16 : FVec F S_ .f32 := constant S_ .f32 0x7F800000#32
  let main_v45 : FVec F S10 .f32 := broadcastInDim S10 ![] bcast_S_S10 main_cst_16
  let main_v46 : IVec S10 1 := cmpf .olt main_v44 main_v45
  let main_c_17 : IVec S_ 1 := constantI S_ 1 1#1
  let main_v47 : IVec S_ 1 := (fun x v => Host.reduce IntOp.andi x v reducesTo_S10_S_d0 h_S_) main_v46 main_c_17
  let main_v48 : IVec S_ 1 := andi main_v43 main_v47
  main_v48

def fn_part1 {F : FTy → Type} [FloatOps F] (main_arg6 : FVec F S64x64 .f32) (main_arg7 : FVec F S64 .f32) (main_arg8 : FVec F S64x64 .f32) (main_arg9 : FVec F S64 .f32) (main_arg10 : FVec F S64x10 .f32) (main_arg11 : FVec F S10 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg8
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg9 main_arg10 main_arg11 main_v33

def fn {F : FTy → Type} [FloatOps F] (main_arg0 : FVec F S50000x64 .f32) (main_arg1 : IVec S2x800000 32) (main_arg2 : IVec S50000 32) (main_arg3 : FVec F S800000 .f32) (main_arg4 : FVec F S64x64 .f32) (main_arg5 : FVec F S64 .f32) (main_arg6 : FVec F S64x64 .f32) (main_arg7 : FVec F S64 .f32) (main_arg8 : FVec F S64x64 .f32) (main_arg9 : FVec F S64 .f32) (main_arg10 : FVec F S64x10 .f32) (main_arg11 : FVec F S10 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000 .f32 := Host.absf main_arg3
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_v13 main_v16
-- ==== Kernel.lean ====
abbrev S50000x64 : Shape := ⟨2, ![50000, 64]⟩
abbrev S2x800000 : Shape := ⟨2, ![2, 800000]⟩
abbrev S50000 : Shape := ⟨1, ![50000]⟩
abbrev S800000 : Shape := ⟨1, ![800000]⟩
abbrev S64x64 : Shape := ⟨2, ![64, 64]⟩
abbrev S64 : Shape := ⟨1, ![64]⟩
abbrev S64x10 : Shape := ⟨2, ![64, 10]⟩
abbrev S10 : Shape := ⟨1, ![10]⟩
abbrev S1x800000 : Shape := ⟨2, ![1, 800000]⟩
abbrev S850000 : Shape := ⟨1, ![850000]⟩
abbrev S_ : Shape := ⟨0, ![]⟩
abbrev S850000x1 : Shape := ⟨2, ![850000, 1]⟩
abbrev S5000x64 : Shape := ⟨2, ![5000, 64]⟩
abbrev S850000x64 : Shape := ⟨2, ![850000, 64]⟩
abbrev S1x64 : Shape := ⟨2, ![1, 64]⟩
abbrev S50000x1 : Shape := ⟨2, ![50000, 1]⟩
abbrev S64x1 : Shape := ⟨2, ![64, 1]⟩
abbrev S1x10 : Shape := ⟨2, ![1, 10]⟩

abbrev nBuf : Space → Nat
  | .hbm => 149
  | .vmem => 18
  | .smem => 0
  | _ => 0

abbrev hbmTy0_0 (i : Nat) : BufTy := match i % 128 with
  | 0 => ⟨S50000x64, .f32⟩
  | 1 => ⟨S2x800000, .i32⟩
  | 2 => ⟨S50000, .i32⟩
  | 3 => ⟨S800000, .f32⟩
  | 4 => ⟨S64x64, .f32⟩
  | 5 => ⟨S64, .f32⟩
  | 6 => ⟨S64x64, .f32⟩
  | 7 => ⟨S64, .f32⟩
  | 8 => ⟨S64x64, .f32⟩
  | 9 => ⟨S64, .f32⟩
  | 10 => ⟨S64x10, .f32⟩
  | 11 => ⟨S10, .f32⟩
  | 12 => ⟨S1x800000, .i32⟩
  | 13 => ⟨S800000, .i32⟩
  | 14 => ⟨S1x800000, .i32⟩
  | 15 => ⟨S800000, .i32⟩
  | 16 => ⟨S50000, .i32⟩
  | 17 => ⟨S850000, .i32⟩
  | 18 => ⟨S850000, .i32⟩
  | 19 => ⟨S800000, .f32⟩
  | 20 => ⟨S800000, .f32⟩
  | 21 => ⟨S_, .f32⟩
  | 22 => ⟨S800000, .f32⟩
  | 23 => ⟨S800000, .f32⟩
  | 24 => ⟨S_, .f32⟩
  | 25 => ⟨S800000, .f32⟩
  | 26 => ⟨S800000, .f32⟩
  | 27 => ⟨S_, .f32⟩
  | 28 => ⟨S50000, .f32⟩
  | 29 => ⟨S850000, .f32⟩
  | 30 => ⟨S_, .f32⟩
  | 31 => ⟨S50000, .f32⟩
  | 32 => ⟨S850000x1, .i32⟩
  | 33 => ⟨S50000, .f32⟩
  | 34 => ⟨S_, .f32⟩
  | 35 => ⟨S50000, .f32⟩
  | 36 => ⟨S50000, .i1⟩
  | 37 => ⟨S_, .f32⟩
  | 38 => ⟨S50000, .f32⟩
  | 39 => ⟨S50000, .f32⟩
  | 40 => ⟨S_, .f32⟩
  | 41 => ⟨S_, .f32⟩
  | 42 => ⟨S50000, .f32⟩
  | 43 => ⟨S50000, .f32⟩
  | 44 => ⟨S_, .i32⟩
  | 45 => ⟨S850000, .i32⟩
  | 46 => ⟨S850000, .i1⟩
  | 47 => ⟨S_, .i32⟩
  | 48 => ⟨S850000, .i32⟩
  | 49 => ⟨S850000, .i32⟩
  | 50 => ⟨S850000, .i32⟩
  | 51 => ⟨S850000x1, .i32⟩
  | 52 => ⟨S850000, .f32⟩
  | 53 => ⟨S850000, .f32⟩
  | 54 => ⟨S_, .i32⟩
  | 55 => ⟨S850000, .i32⟩
  | 56 => ⟨S850000, .i1⟩
  | 57 => ⟨S_, .i32⟩
  | 58 => ⟨S850000, .i32⟩
  | 59 => ⟨S850000, .i32⟩
  | 60 => ⟨S850000, .i32⟩
  | 61 => ⟨S850000x1, .i32⟩
  | 62 => ⟨S850000, .f32⟩
  | 63 => ⟨S850000, .f32⟩
  | 64 => ⟨S50000x64, .f32⟩
  | 65 => ⟨S850000x1, .f32⟩
  | 66 => ⟨S_, .i32⟩
  | 67 => ⟨S850000, .i32⟩
  | 68 => ⟨S850000, .i1⟩
  | 69 => ⟨S_, .i32⟩
  | 70 => ⟨S850000, .i32⟩
  | 71 => ⟨S850000, .i32⟩
  | 72 => ⟨S850000, .i32⟩
  | 73 => ⟨S850000x1, .i32⟩
  | 74 => ⟨S850000x64, .f32⟩
  | 75 => ⟨S850000x64, .f32⟩
  | 76 => ⟨S850000x64, .f32⟩
  | 77 => ⟨S_, .f32⟩
  | 78 => ⟨S50000x64, .f32⟩
  | 79 => ⟨S850000x1, .i32⟩
  | 80 => ⟨S50000x64, .f32⟩
  | 81 => ⟨S1x64, .f32⟩
  | 82 => ⟨S50000x64, .f32⟩
  | 83 => ⟨S50000x64, .f32⟩
  | 84 => ⟨S_, .f32⟩
  | 85 => ⟨S50000x64, .f32⟩
  | 86 => ⟨S50000x64, .f32⟩
  | 87 => ⟨S50000x64, .f32⟩
  | 88 => ⟨S850000x1, .f32⟩
  | 89 => ⟨S_, .i32⟩
  | 90 => ⟨S850000, .i32⟩
  | 91 => ⟨S850000, .i1⟩
  | 92 => ⟨S_, .i32⟩
  | 93 => ⟨S850000, .i32⟩
  | 94 => ⟨S850000, .i32⟩
  | 95 => ⟨S850000, .i32⟩
  | 96 => ⟨S850000x1, .i32⟩
  | 97 => ⟨S850000x64, .f32⟩
  | 98 => ⟨S850000x64, .f32⟩
  | 99 => ⟨S850000x64, .f32⟩
  | 100 => ⟨S_, .f32⟩
  | 101 => ⟨S50000x64, .f32⟩
  | 102 => ⟨S850000x1, .i32⟩
  | 103 => ⟨S50000x64, .f32⟩
  | 104 => ⟨S1x64, .f32⟩
  | 105 => ⟨S50000x64, .f32⟩
  | 106 => ⟨S50000x64, .f32⟩
  | 107 => ⟨S_, .f32⟩
  | 108 => ⟨S50000x64, .f32⟩
  | 109 => ⟨S50000x64, .f32⟩
  | 110 => ⟨S50000x64, .f32⟩
  | 111 => ⟨S850000x1, .f32⟩
  | 112 => ⟨S_, .i32⟩
  | 113 => ⟨S850000, .i32⟩
  | 114 => ⟨S850000, .i1⟩
  | 115 => ⟨S_, .i32⟩
  | 116 => ⟨S850000, .i32⟩
  | 117 => ⟨S850000, .i32⟩
  | 118 => ⟨S850000, .i32⟩
  | 119 => ⟨S850000x1, .i32⟩
  | 120 => ⟨S850000x64, .f32⟩
  | 121 => ⟨S850000x64, .f32⟩
  | 122 => ⟨S850000x64, .f32⟩
  | 123 => ⟨S_, .f32⟩
  | 124 => ⟨S50000x64, .f32⟩
  | 125 => ⟨S850000x1, .i32⟩
  | 126 => ⟨S50000x64, .f32⟩
  | 127 => ⟨S1x64, .f32⟩
  | _ => ⟨S50000x64, .f32⟩

abbrev hbmTy0_1 (i : Nat) : BufTy := match i % 128 with
  | 0 => ⟨S50000x64, .f32⟩
  | 1 => ⟨S50000x64, .f32⟩
  | 2 => ⟨S_, .f32⟩
  | 3 => ⟨S64x64, .f32⟩
  | 4 => ⟨S50000x1, .i32⟩
  | 5 => ⟨S64x64, .f32⟩
  | 6 => ⟨S_, .f32⟩
  | 7 => ⟨S50000x1, .f32⟩
  | 8 => ⟨S_, .f32⟩
  | 9 => ⟨S64x1, .f32⟩
  | 10 => ⟨S50000x1, .i32⟩
  | 11 => ⟨S64x1, .f32⟩
  | 12 => ⟨S_, .f32⟩
  | 13 => ⟨S64x1, .f32⟩
  | 14 => ⟨S64x1, .f32⟩
  | 15 => ⟨S64x64, .f32⟩
  | 16 => ⟨S64x64, .f32⟩
  | 17 => ⟨S64x10, .f32⟩
  | 18 => ⟨S1x10, .f32⟩
  | 19 => ⟨S64x10, .f32⟩
  | 20 => ⟨S64x10, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S64x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S64x64, .f32⟩
  | .local _ .vmem, ⟨13, _⟩ => ⟨S5000x64, .f32⟩
  | .local _ .vmem, ⟨14, _⟩ => ⟨S5000x64, .f32⟩
  | .local _ .vmem, ⟨15, _⟩ => ⟨S64x64, .f32⟩
  | .local _ .vmem, ⟨16, _⟩ => ⟨S64x10, .f32⟩
  | .local _ .vmem, ⟨17, _⟩ => ⟨S64x10, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst : Ref sig .tc := ⟨.hbm, 21, rfl⟩
abbrev main_v9 : Ref sig .tc := ⟨.hbm, 22, rfl⟩
abbrev main_v10 : Ref sig .tc := ⟨.hbm, 23, rfl⟩
abbrev main_cst_0 : Ref sig .tc := ⟨.hbm, 24, rfl⟩
abbrev main_v11 : Ref sig .tc := ⟨.hbm, 25, rfl⟩
abbrev main_v12 : Ref sig .tc := ⟨.hbm, 26, rfl⟩
abbrev main_cst_1 : Ref sig .tc := ⟨.hbm, 27, rfl⟩
abbrev main_v13 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_cst_4 : Ref sig .tc := ⟨.hbm, 37, rfl⟩
abbrev main_v20 : Ref sig .tc := ⟨.hbm, 38, rfl⟩
abbrev main_v21 : Ref sig .tc := ⟨.hbm, 39, rfl⟩
abbrev main_cst_5 : Ref sig .tc := ⟨.hbm, 40, rfl⟩
abbrev main_call0_v0 : Ref sig .tc := ⟨.hbm, 41, rfl⟩
abbrev main_call0_v1 : Ref sig .tc := ⟨.hbm, 42, rfl⟩
abbrev main_v22 : Ref sig .tc := ⟨.hbm, 43, rfl⟩
abbrev main_c : Ref sig .tc := ⟨.hbm, 44, rfl⟩
abbrev main_v23 : Ref sig .tc := ⟨.hbm, 45, rfl⟩
abbrev main_v24 : Ref sig .tc := ⟨.hbm, 46, rfl⟩
abbrev main_c_6 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_c_7 : Ref sig .tc := ⟨.hbm, 54, rfl⟩
abbrev main_v31 : Ref sig .tc := ⟨.hbm, 55, rfl⟩
abbrev main_v32 : Ref sig .tc := ⟨.hbm, 56, rfl⟩
abbrev main_c_8 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_c_9 : Ref sig .tc := ⟨.hbm, 66, rfl⟩
abbrev main_v41 : Ref sig .tc := ⟨.hbm, 67, rfl⟩
abbrev main_v42 : Ref sig .tc := ⟨.hbm, 68, rfl⟩
abbrev main_c_10 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_cst_11 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_call1_cst : Ref sig .tc := ⟨.hbm, 84, rfl⟩
abbrev main_call1_v0 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_c_12 : Ref sig .tc := ⟨.hbm, 89, rfl⟩
abbrev main_v59 : Ref sig .tc := ⟨.hbm, 90, rfl⟩
abbrev main_v60 : Ref sig .tc := ⟨.hbm, 91, rfl⟩
abbrev main_c_13 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_cst_14 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_call2_cst : Ref sig .tc := ⟨.hbm, 107, rfl⟩
abbrev main_call2_v0 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_c_15 : Ref sig .tc := ⟨.hbm, 112, rfl⟩
abbrev main_v77 : Ref sig .tc := ⟨.hbm, 113, rfl⟩
abbrev main_v78 : Ref sig .tc := ⟨.hbm, 114, rfl⟩
abbrev main_c_16 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_cst_17 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_cst_18 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_cst_19 : Ref sig .tc := ⟨.hbm, 134, rfl⟩
abbrev main_v95 : Ref sig .tc := ⟨.hbm, 135, rfl⟩
abbrev main_cst_20 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_cst_21 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg1_0 : Ref sig .tc := ⟨.vmem, 16, rfl⟩
abbrev cc3_stg2_0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem1_0 : DmaSem sig := 16
abbrev cc3_sem2_0 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 1 → Memref sig .tc .vmem S64x64 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true]

abbrev stage3_1 : Fin 1 → Memref sig .tc .vmem S64x10 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S64x10 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S800000 : S_.BroadcastsInDim S800000 (![] : Fin 0 → Fin S800000.rank)
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  shapeCasts_S5000x64_S5000x64 : S5000x64.ShapeCasts S5000x64
  bcast_S_S64x64 : S_.BroadcastsInDim S64x64 (![] : Fin 0 → Fin S64x64.rank)
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S_S64x1 : S_.BroadcastsInDim S64x1 (![] : Fin 0 → Fin S64x1.rank)
  bcast_S64x1_S64x64_0_1 : S64x1.BroadcastsInDim S64x64 (![0, 1] : Fin 2 → Fin S64x64.rank)
  shapeCasts_S64x64_S64x64 : S64x64.ShapeCasts S64x64
  inb_S64x10_S64x10_0_0 : ∀ a, (![0, 0] : Fin 2 → Nat) a + S64x10.size a ≤ S64x10.size a
  h_S64x10 : 0 < S64x10.numel
  bcast_S10_S1x10_1 : S10.BroadcastsInDim S1x10 (![1] : Fin 1 → Fin S1x10.rank)
  bcast_S1x10_S64x10_0_1 : S1x10.BroadcastsInDim S64x10 (![0, 1] : Fin 2 → Fin S64x10.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x64_S64x64_S5000x64_1_0_0_1_n_n_wf : DotDims.WF S5000x64 S64x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  scatter_S64x64_S50000x1_S50000x64_1_0_0_1_wf : ScatterDims.WF S64x64 S50000x1 S50000x64 [1] [0] [0] 1
  scatter_S64x1_S50000x1_S50000x1_1_0_0_1_wf : ScatterDims.WF S64x1 S50000x1 S50000x1 [1] [0] [0] 1
  dot_S64x64_S64x10_S64x10_1_0_0_1_n_n_wf : DotDims.WF S64x64 S64x10 S64x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S50000x64.size a
  hwx0_2 : ∀ i : grid0.Coords, EltTy.bits .f32 = 32 ∨ (Rect.block (s := S50000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S50000x64.size a
  hwx1_2 : ∀ i : grid1.Coords, EltTy.bits .f32 = 32 ∨ (Rect.block (s := S50000x64) S5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S50000x64.size a
  hwx2_2 : ∀ i : grid2.Coords, EltTy.bits .f32 = 32 ∨ (Rect.block (s := S50000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 1
  hreads3_0 : ∀ i i' : grid3.Coords, (∀ a, reads3_0 a = true → i a = i' a) → cc3_transform_0 i = cc3_transform_0 i'
  hinb3_0 : ∀ (i : grid3.Coords) a, (cc3_transform_0 i a + 1) * S64x64.size a ≤ S64x64.size a
  hwx3_0 : ∀ i : grid3.Coords, EltTy.bits .f32 = 32 ∨ (Rect.block (s := S64x64) S64x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x10.size a ≤ S64x10.size a
  hwx3_1 : ∀ i : grid3.Coords, EltTy.bits .f32 = 32 ∨ (Rect.block (s := S64x10) S64x10.size (cc3_transform_1 i) (hinb3_1 i)).WholeWords (EltTy.packing .f32)
  hstage3_2 : ∀ j, (stage3_2 j).IsWhole
  nbuf3_2 : grid3.bufCount reads3_2 false = 1
  hreads3_2 : ∀ i i' : grid3.Coords, (∀ a, reads3_2 a = true → i a = i' a) → cc3_transform_2 i = cc3_transform_2 i'
  hinb3_2 : ∀ (i : grid3.Coords) a, (cc3_transform_2 i a + 1) * S64x10.size a ≤ S64x10.size a
  hwx3_2 : ∀ i : grid3.Coords, EltTy.bits .f32 = 32 ∨ (Rect.block (s := S64x10) S64x10.size (cc3_transform_2 i) (hinb3_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def scatter_S64x64_S50000x1_S50000x64_1_0_0_1 : ScatterDims S64x64 S50000x1 S50000x64 where
  updateWindowDims := [1]
  insertedWindowDims := [0]
  scatterDimsToOperandDims := [0]
  indexVectorDim := 1
  wf := scatter_S64x64_S50000x1_S50000x64_1_0_0_1_wf
def scatter_S64x1_S50000x1_S50000x1_1_0_0_1 : ScatterDims S64x1 S50000x1 S50000x1 where
  updateWindowDims := [1]
  insertedWindowDims := [0]
  scatterDimsToOperandDims := [0]
  indexVectorDim := 1
  wf := scatter_S64x1_S50000x1_S50000x1_1_0_0_1_wf
def dot_S64x64_S64x10_S64x10_1_0_0_1_n_n : DotDims S64x64 S64x10 S64x10 where
  lhsContracting := [1]
  rhsContracting := [0]
  lhsNonContracting := [0]
  rhsNonContracting := [1]
  lhsBatch := []
  rhsBatch := []
  wf := dot_S64x64_S64x10_S64x10_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v39) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v56) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v57) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v74) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v75) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v102) S64x64.size cc3_transform_0 reads3_0 false false 1 stage3_0 sem3_0
    hrank3 hreads3_0 hinb3_0 nbuf3_0 (Memref.isWhole_whole _) hwx3_0 hstage3_0

abbrev win3_1 : Pipeline.Window sig grid3 :=
  Pipeline.Window.ofSpec (Memref.whole main_arg10) S64x10.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v103) S64x10.size cc3_transform_2 reads3_2 true false 1 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S50000 : Shape := ⟨1, ![50000]⟩
abbrev S800000 : Shape := ⟨1, ![800000]⟩
abbrev S64x64 : Shape := ⟨2, ![64, 64]⟩
abbrev S64 : Shape := ⟨1, ![64]⟩
abbrev S64x10 : Shape := ⟨2, ![64, 10]⟩
abbrev S10 : Shape := ⟨1, ![10]⟩
abbrev S1x800000 : Shape := ⟨2, ![1, 800000]⟩
abbrev S850000 : Shape := ⟨1, ![850000]⟩
abbrev S_ : Shape := ⟨0, ![]⟩
abbrev S850000x1 : Shape := ⟨2, ![850000, 1]⟩
abbrev S850000x64 : Shape := ⟨2, ![850000, 64]⟩
abbrev S1x64 : Shape := ⟨2, ![1, 64]⟩
abbrev S50000x1 : Shape := ⟨2, ![50000, 1]⟩
abbrev S64x1 : Shape := ⟨2, ![64, 1]⟩
abbrev S1x10 : Shape := ⟨2, ![1, 10]⟩

abbrev nBuf : Space → Nat
  | .hbm => 149
  | .vmem => 0
  | .smem => 0
  | _ => 0

abbrev hbmTy0_0 (i : Nat) : BufTy := match i % 128 with
  | 0 => ⟨S50000x64, .f32⟩
  | 1 => ⟨S2x800000, .i32⟩
  | 2 => ⟨S50000, .i32⟩
  | 3 => ⟨S800000, .f32⟩
  | 4 => ⟨S64x64, .f32⟩
  | 5 => ⟨S64, .f32⟩
  | 6 => ⟨S64x64, .f32⟩
  | 7 => ⟨S64, .f32⟩
  | 8 => ⟨S64x64, .f32⟩
  | 9 => ⟨S64, .f32⟩
  | 10 => ⟨S64x10, .f32⟩
  | 11 => ⟨S10, .f32⟩
  | 12 => ⟨S1x800000, .i32⟩
  | 13 => ⟨S800000, .i32⟩
  | 14 => ⟨S1x800000, .i32⟩
  | 15 => ⟨S800000, .i32⟩
  | 16 => ⟨S50000, .i32⟩
  | 17 => ⟨S850000, .i32⟩
  | 18 => ⟨S850000, .i32⟩
  | 19 => ⟨S800000, .f32⟩
  | 20 => ⟨S800000, .f32⟩
  | 21 => ⟨S_, .f32⟩
  | 22 => ⟨S800000, .f32⟩
  | 23 => ⟨S800000, .f32⟩
  | 24 => ⟨S_, .f32⟩
  | 25 => ⟨S800000, .f32⟩
  | 26 => ⟨S800000, .f32⟩
  | 27 => ⟨S_, .f32⟩
  | 28 => ⟨S50000, .f32⟩
  | 29 => ⟨S850000, .f32⟩
  | 30 => ⟨S_, .f32⟩
  | 31 => ⟨S50000, .f32⟩
  | 32 => ⟨S850000x1, .i32⟩
  | 33 => ⟨S50000, .f32⟩
  | 34 => ⟨S_, .f32⟩
  | 35 => ⟨S50000, .f32⟩
  | 36 => ⟨S50000, .i1⟩
  | 37 => ⟨S_, .f32⟩
  | 38 => ⟨S50000, .f32⟩
  | 39 => ⟨S50000, .f32⟩
  | 40 => ⟨S_, .f32⟩
  | 41 => ⟨S_, .f32⟩
  | 42 => ⟨S50000, .f32⟩
  | 43 => ⟨S50000, .f32⟩
  | 44 => ⟨S_, .i32⟩
  | 45 => ⟨S850000, .i32⟩
  | 46 => ⟨S850000, .i1⟩
  | 47 => ⟨S_, .i32⟩
  | 48 => ⟨S850000, .i32⟩
  | 49 => ⟨S850000, .i32⟩
  | 50 => ⟨S850000, .i32⟩
  | 51 => ⟨S850000x1, .i32⟩
  | 52 => ⟨S850000, .f32⟩
  | 53 => ⟨S850000, .f32⟩
  | 54 => ⟨S_, .i32⟩
  | 55 => ⟨S850000, .i32⟩
  | 56 => ⟨S850000, .i1⟩
  | 57 => ⟨S_, .i32⟩
  | 58 => ⟨S850000, .i32⟩
  | 59 => ⟨S850000, .i32⟩
  | 60 => ⟨S850000, .i32⟩
  | 61 => ⟨S850000x1, .i32⟩
  | 62 => ⟨S850000, .f32⟩
  | 63 => ⟨S850000, .f32⟩
  | 64 => ⟨S50000x64, .f32⟩
  | 65 => ⟨S850000x1, .f32⟩
  | 66 => ⟨S_, .i32⟩
  | 67 => ⟨S850000, .i32⟩
  | 68 => ⟨S850000, .i1⟩
  | 69 => ⟨S_, .i32⟩
  | 70 => ⟨S850000, .i32⟩
  | 71 => ⟨S850000, .i32⟩
  | 72 => ⟨S850000, .i32⟩
  | 73 => ⟨S850000x1, .i32⟩
  | 74 => ⟨S850000x64, .f32⟩
  | 75 => ⟨S850000x64, .f32⟩
  | 76 => ⟨S850000x64, .f32⟩
  | 77 => ⟨S_, .f32⟩
  | 78 => ⟨S50000x64, .f32⟩
  | 79 => ⟨S850000x1, .i32⟩
  | 80 => ⟨S50000x64, .f32⟩
  | 81 => ⟨S1x64, .f32⟩
  | 82 => ⟨S50000x64, .f32⟩
  | 83 => ⟨S50000x64, .f32⟩
  | 84 => ⟨S_, .f32⟩
  | 85 => ⟨S50000x64, .f32⟩
  | 86 => ⟨S50000x64, .f32⟩
  | 87 => ⟨S50000x64, .f32⟩
  | 88 => ⟨S850000x1, .f32⟩
  | 89 => ⟨S_, .i32⟩
  | 90 => ⟨S850000, .i32⟩
  | 91 => ⟨S850000, .i1⟩
  | 92 => ⟨S_, .i32⟩
  | 93 => ⟨S850000, .i32⟩
  | 94 => ⟨S850000, .i32⟩
  | 95 => ⟨S850000, .i32⟩
  | 96 => ⟨S850000x1, .i32⟩
  | 97 => ⟨S850000x64, .f32⟩
  | 98 => ⟨S850000x64, .f32⟩
  | 99 => ⟨S850000x64, .f32⟩
  | 100 => ⟨S_, .f32⟩
  | 101 => ⟨S50000x64, .f32⟩
  | 102 => ⟨S850000x1, .i32⟩
  | 103 => ⟨S50000x64, .f32⟩
  | 104 => ⟨S1x64, .f32⟩
  | 105 => ⟨S50000x64, .f32⟩
  | 106 => ⟨S50000x64, .f32⟩
  | 107 => ⟨S_, .f32⟩
  | 108 => ⟨S50000x64, .f32⟩
  | 109 => ⟨S50000x64, .f32⟩
  | 110 => ⟨S50000x64, .f32⟩
  | 111 => ⟨S850000x1, .f32⟩
  | 112 => ⟨S_, .i32⟩
  | 113 => ⟨S850000, .i32⟩
  | 114 => ⟨S850000, .i1⟩
  | 115 => ⟨S_, .i32⟩
  | 116 => ⟨S850000, .i32⟩
  | 117 => ⟨S850000, .i32⟩
  | 118 => ⟨S850000, .i32⟩
  | 119 => ⟨S850000x1, .i32⟩
  | 120 => ⟨S850000x64, .f32⟩
  | 121 => ⟨S850000x64, .f32⟩
  | 122 => ⟨S850000x64, .f32⟩
  | 123 => ⟨S_, .f32⟩
  | 124 => ⟨S50000x64, .f32⟩
  | 125 => ⟨S850000x1, .i32⟩
  | 126 => ⟨S50000x64, .f32⟩
  | 127 => ⟨S1x64, .f32⟩
  | _ => ⟨S50000x64, .f32⟩

abbrev hbmTy0_1 (i : Nat) : BufTy := match i % 128 with
  | 0 => ⟨S50000x64, .f32⟩
  | 1 => ⟨S50000x64, .f32⟩
  | 2 => ⟨S_, .f32⟩
  | 3 => ⟨S64x64, .f32⟩
  | 4 => ⟨S50000x1, .i32⟩
  | 5 => ⟨S64x64, .f32⟩
  | 6 => ⟨S_, .f32⟩
  | 7 => ⟨S50000x1, .f32⟩
  | 8 => ⟨S_, .f32⟩
  | 9 => ⟨S64x1, .f32⟩
  | 10 => ⟨S50000x1, .i32⟩
  | 11 => ⟨S64x1, .f32⟩
  | 12 => ⟨S_, .f32⟩
  | 13 => ⟨S64x1, .f32⟩
  | 14 => ⟨S64x1, .f32⟩
  | 15 => ⟨S64x64, .f32⟩
  | 16 => ⟨S64x64, .f32⟩
  | 17 => ⟨S64x10, .f32⟩
  | 18 => ⟨S1x10, .f32⟩
  | 19 => ⟨S64x10, .f32⟩
  | 20 => ⟨S64x10, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst : Ref sig .tc := ⟨.hbm, 21, rfl⟩
abbrev main_v9 : Ref sig .tc := ⟨.hbm, 22, rfl⟩
abbrev main_v10 : Ref sig .tc := ⟨.hbm, 23, rfl⟩
abbrev main_cst_0 : Ref sig .tc := ⟨.hbm, 24, rfl⟩
abbrev main_v11 : Ref sig .tc := ⟨.hbm, 25, rfl⟩
abbrev main_v12 : Ref sig .tc := ⟨.hbm, 26, rfl⟩
abbrev main_cst_1 : Ref sig .tc := ⟨.hbm, 27, rfl⟩
abbrev main_v13 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_cst_4 : Ref sig .tc := ⟨.hbm, 37, rfl⟩
abbrev main_v20 : Ref sig .tc := ⟨.hbm, 38, rfl⟩
abbrev main_v21 : Ref sig .tc := ⟨.hbm, 39, rfl⟩
abbrev main_cst_5 : Ref sig .tc := ⟨.hbm, 40, rfl⟩
abbrev main_call0_v0 : Ref sig .tc := ⟨.hbm, 41, rfl⟩
abbrev main_call0_v1 : Ref sig .tc := ⟨.hbm, 42, rfl⟩
abbrev main_v22 : Ref sig .tc := ⟨.hbm, 43, rfl⟩
abbrev main_c : Ref sig .tc := ⟨.hbm, 44, rfl⟩
abbrev main_v23 : Ref sig .tc := ⟨.hbm, 45, rfl⟩
abbrev main_v24 : Ref sig .tc := ⟨.hbm, 46, rfl⟩
abbrev main_c_6 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_c_7 : Ref sig .tc := ⟨.hbm, 54, rfl⟩
abbrev main_v31 : Ref sig .tc := ⟨.hbm, 55, rfl⟩
abbrev main_v32 : Ref sig .tc := ⟨.hbm, 56, rfl⟩
abbrev main_c_8 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_c_9 : Ref sig .tc := ⟨.hbm, 66, rfl⟩
abbrev main_v41 : Ref sig .tc := ⟨.hbm, 67, rfl⟩
abbrev main_v42 : Ref sig .tc := ⟨.hbm, 68, rfl⟩
abbrev main_c_10 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_cst_11 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_call1_cst : Ref sig .tc := ⟨.hbm, 84, rfl⟩
abbrev main_call1_v0 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_c_12 : Ref sig .tc := ⟨.hbm, 89, rfl⟩
abbrev main_v59 : Ref sig .tc := ⟨.hbm, 90, rfl⟩
abbrev main_v60 : Ref sig .tc := ⟨.hbm, 91, rfl⟩
abbrev main_c_13 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_cst_14 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_call2_cst : Ref sig .tc := ⟨.hbm, 107, rfl⟩
abbrev main_call2_v0 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_c_15 : Ref sig .tc := ⟨.hbm, 112, rfl⟩
abbrev main_v77 : Ref sig .tc := ⟨.hbm, 113, rfl⟩
abbrev main_v78 : Ref sig .tc := ⟨.hbm, 114, rfl⟩
abbrev main_c_16 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_cst_17 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_cst_18 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_cst_19 : Ref sig .tc := ⟨.hbm, 134, rfl⟩
abbrev main_v95 : Ref sig .tc := ⟨.hbm, 135, rfl⟩
abbrev main_cst_20 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_cst_21 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S800000 : S_.BroadcastsInDim S800000 (![] : Fin 0 → Fin S800000.rank)
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S64x64 : S_.BroadcastsInDim S64x64 (![] : Fin 0 → Fin S64x64.rank)
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S_S64x1 : S_.BroadcastsInDim S64x1 (![] : Fin 0 → Fin S64x1.rank)
  bcast_S64x1_S64x64_0_1 : S64x1.BroadcastsInDim S64x64 (![0, 1] : Fin 2 → Fin S64x64.rank)
  bcast_S10_S1x10_1 : S10.BroadcastsInDim S1x10 (![1] : Fin 1 → Fin S1x10.rank)
  bcast_S1x10_S64x10_0_1 : S1x10.BroadcastsInDim S64x10 (![0, 1] : Fin 2 → Fin S64x10.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x64_S64x64_S50000x64_1_0_0_1_n_n_wf : DotDims.WF S50000x64 S64x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  scatter_S64x64_S50000x1_S50000x64_1_0_0_1_wf : ScatterDims.WF S64x64 S50000x1 S50000x64 [1] [0] [0] 1
  scatter_S64x1_S50000x1_S50000x1_1_0_0_1_wf : ScatterDims.WF S64x1 S50000x1 S50000x1 [1] [0] [0] 1
  dot_S64x64_S64x10_S64x10_1_0_0_1_n_n_wf : DotDims.WF S64x64 S64x10 S64x10 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def scatter_S64x64_S50000x1_S50000x64_1_0_0_1 : ScatterDims S64x64 S50000x1 S50000x64 where
  updateWindowDims := [1]
  insertedWindowDims := [0]
  scatterDimsToOperandDims := [0]
  indexVectorDim := 1
  wf := scatter_S64x64_S50000x1_S50000x64_1_0_0_1_wf
def scatter_S64x1_S50000x1_S50000x1_1_0_0_1 : ScatterDims S64x1 S50000x1 S50000x1 where
  updateWindowDims := [1]
  insertedWindowDims := [0]
  scatterDimsToOperandDims := [0]
  indexVectorDim := 1
  wf := scatter_S64x1_S50000x1_S50000x1_1_0_0_1_wf
def dot_S64x64_S64x10_S64x10_1_0_0_1_n_n : DotDims S64x64 S64x10 S64x10 where
  lhsContracting := [1]
  rhsContracting := [0]
  lhsNonContracting := [0]
  rhsNonContracting := [1]
  lhsBatch := []
  rhsBatch := []
  wf := dot_S64x64_S64x10_S64x10_1_0_0_1_n_n_wf

class Facts : Prop extends Facts₀ where

variable [Facts]
-- ==== Proof.Ends.lean ====
/-
  Where the idealized kernel's run ends.

  The program is a chain of thirteen segments — host stretches and the four launches — and the buffer contents at each
  boundary are a fold from the launch memory: after the last stretch every buffer the device holds outside a launch is
  at `W13`. The frame of the program keeps, of that, only that the arguments end as launched. Here the same launch of
  the segments is stated with its conclusion open: every weakly fair execution terminates, and ANY property that
  follows from "every such buffer of the final memory is at `W13`" holds of the final memory. The result buffer is one
  of those buffers, so its final contents can be read off the fold.
-/
import proofs.«121246_j22273700397228_1_alg».proof.Proof.Gen.KernelIdeal.Frame

set_option maxRecDepth 16384

noncomputable section

namespace Cert.KernelIdeal.Ends

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the program from `m` terminates without a fault, and its final memory satisfies
    whatever follows from holding every buffer outside the launches at the last boundary's contents. -/
theorem ends_at {Q : PUnit × MemSt nD τ sig (Elt F) → Prop}
    (hQ : ∀ s : MemSt nD τ sig (Elt F),
      (∀ c : Dev nD, ∀ b ∈ Pipeline.ucRefs τ sig, s.mem (((c : Thread nD τ)).1, b) = W13 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := hQ)

end Cert.KernelIdeal.Ends

end
-- ==== Proof.Keeps.lean ====
/-
  What each host stretch of the idealized kernel leaves alone.

  Between two launches the program runs a stretch of host operations, each writing one buffer of its own. A buffer
  that no operation of a stretch writes holds after the stretch what it held before: the lists below name, per
  stretch, the buffers its operations write, and the lemmas say that any other buffer passes through. This is how the
  arguments, the two edge lists and the edge normalisation reach the later stretches that read them.
-/
import proofs.«121246_j22273700397228_1_alg».proof.Proof.Gen.KernelIdeal.Frame

set_option maxRecDepth 16384

noncomputable section

namespace Cert.KernelIdeal.Keeps

open Cert.KernelIdeal Cert.KernelIdeal.Gen Idealize.ShloMosaic Idealize.ShloMosaic.TcCoe Idealize.SL.Sem

/-- One operation writes only its own result buffer, and the stretch's list names it. -/
local macro "names_its_result" : tactic =>
  `(tactic| (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes,
      Finset.singleton_subset_iff, List.mem_toFinset]; exact List.mem_map_of_mem (by decide)))

variable {F : FTy → Type} [FloatOps F]
variable (m : (ℓ : Loc nD τ sig) → Buf (Elt F) ℓ) (ρ : Dev nD → PrngReg)

/-- The buffers written by the stretch that builds the edge lists, the edge weights and the degrees. -/
abbrev pre_writes : List (Ref sig .tc) := [main_v0, main_v1, main_v2, main_v3, main_v4, main_v5, main_v6, main_v7, main_v8, main_cst, main_v9, main_v10, main_cst_0, main_v11, main_v12, main_cst_1, main_v13, main_v14, main_cst_2, main_v15, main_v16, main_v17, main_cst_3, main_v18, main_v19, main_cst_4, main_v20, main_v21, main_cst_5]
theorem pre_writes_sub : (hostOps0 : List (HloOp τ sig (Elt F))).Forall fun op => op.writes ⊆ (pre_writes.map (Proc.devRef (τ := τ) .tc)).toFinset := by
  simp only [List.Forall]; exact ⟨by names_its_result,
    by names_its_result,
    by names_its_result,
    by names_its_result,
    by names_its_result,
    by names_its_result,
    by names_its_result,
    by names_its_result,
    by names_its_result,
    by names_its_result,
    by names_its_result,
    by names_its_result,
    by names_its_result,
    by names_its_result,
    by names_its_result,
    by names_its_result,
    by names_its_result,
    by names_its_result,
    by names_its_result,
    by names_its_result,
    by names_its_result,
    by names_its_result,
    by names_its_result,
    by names_its_result,
    by names_its_result,
    by names_its_result,
    by names_its_result,
    by names_its_result,
    by names_its_result⟩
/-- Any other buffer passes through it. -/
theorem pre_keeps (c : Dev nD) (r : Ref sig .tc) (h : r ∉ pre_writes) :
    W1 m ρ c (Proc.devRef .tc r) = W0 m ρ c (Proc.devRef .tc r) :=
  StableHlo.after_of_writes_sub hostOps0 _ pre_writes_sub h

/-- The buffers written by the `where` that guards the inverse square root of the degrees. -/
abbrev preCall_writes : List (Ref sig .tc) := [main_call0_v0, main_call0_v1, main_v22]
theorem preCall_writes_sub : (hostOps0_1 : List (HloOp τ sig (Elt F))).Forall fun op => op.writes ⊆ (preCall_writes.map (Proc.devRef (τ := τ) .tc)).toFinset := by
  simp only [List.Forall]; exact ⟨by names_its_result,
    by names_its_result,
    by names_its_result⟩
/-- Any other buffer passes through it. -/
theorem preCall_keeps (c : Dev nD) (r : Ref sig .tc) (h : r ∉ preCall_writes) :
    W2 m ρ c (Proc.devRef .tc r) = W1 m ρ c (Proc.devRef .tc r) :=
  StableHlo.after_of_writes_sub hostOps0_1 _ preCall_writes_sub h

/-- The buffers written by the stretch that builds the edge normalisation. -/
abbrev preNorm_writes : List (Ref sig .tc) := [main_c, main_v23, main_v24, main_c_6, main_v25, main_v26, main_v27, main_v28, main_v29, main_v30, main_c_7, main_v31, main_v32, main_c_8, main_v33, main_v34, main_v35, main_v36, main_v37, main_v38]
theorem preNorm_writes_sub : (hostOps0_2 : List (HloOp τ sig (Elt F))).Forall fun op => op.writes ⊆ (preNorm_writes.map (Proc.devRef (τ := τ) .tc)).toFinset := by
  simp only [List.Forall]; exact ⟨by names_its_result,
    by names_its_result,
    by names_its_result,
    by names_its_result,
    by names_its_result,
    by names_its_result,
    by names_its_result,
    by names_its_result,
    by names_its_result,
    by names_its_result,
    by names_its_result,
    by names_its_result,
    by names_its_result,
    by names_its_result,
    by names_its_result,
    by names_its_result,
    by names_its_result,
    by names_its_result,
    by names_its_result,
    by names_its_result⟩
/-- Any other buffer passes through it. -/
theorem preNorm_keeps (c : Dev nD) (r : Ref sig .tc) (h : r ∉ preNorm_writes) :
    W3 m ρ c (Proc.devRef .tc r) = W2 m ρ c (Proc.devRef .tc r) :=
  StableHlo.after_of_writes_sub hostOps0_2 _ preNorm_writes_sub h

/-- The buffers written by the first aggregation (gather, scale, scatter-add, bias). -/
abbrev agg1_writes : List (Ref sig .tc) := [main_v40, main_c_9, main_v41, main_v42, main_c_10, main_v43, main_v44, main_v45, main_v46, main_v47, main_v48, main_v49, main_cst_11, main_v50, main_v51, main_v52, main_v53, main_v54, main_v55]
theorem agg1_writes_sub : (hostOps1 : List (HloOp τ sig (Elt F))).Forall fun op => op.writes ⊆ (agg1_writes.map (Proc.devRef (τ := τ) .tc)).toFinset := by
  simp only [List.Forall]; exact ⟨by names_its_result,
    by names_its_result,
    by names_its_result,
    by names_its_result,
    by names_its_result,
    by names_its_result,
    by names_its_result,
    by names_its_result,
    by names_its_result,
    by names_its_result,
    by names_its_result,
    by names_its_result,
    by names_its_result,
    by names_its_result,
    by names_its_result,
    by names_its_result,
    by names_its_result,
    by names_its_result,
    by names_its_result⟩
/-- Any other buffer passes through it. -/
theorem agg1_keeps (c : Dev nD) (r : Ref sig .tc) (h : r ∉ agg1_writes) :
    W5 m ρ c (Proc.devRef .tc r) = W4 m ρ c (Proc.devRef .tc r) :=
  StableHlo.after_of_writes_sub hostOps1 _ agg1_writes_sub h

/-- The buffers written by the first `relu`. -/
abbrev relu1_writes : List (Ref sig .tc) := [main_call1_cst, main_call1_v0, main_v56]
theorem relu1_writes_sub : (hostOps1_1 : List (HloOp τ sig (Elt F))).Forall fun op => op.writes ⊆ (relu1_writes.map (Proc.devRef (τ := τ) .tc)).toFinset := by
  simp only [List.Forall]; exact ⟨by names_its_result,
    by names_its_result,
    by names_its_result⟩
/-- Any other buffer passes through it. -/
theorem relu1_keeps (c : Dev nD) (r : Ref sig .tc) (h : r ∉ relu1_writes) :
    W6 m ρ c (Proc.devRef .tc r) = W5 m ρ c (Proc.devRef .tc r) :=
  StableHlo.after_of_writes_sub hostOps1_1 _ relu1_writes_sub h

/-- The buffers written by the second aggregation. -/
abbrev agg2_writes : List (Ref sig .tc) := [main_v58, main_c_12, main_v59, main_v60, main_c_13, main_v61, main_v62, main_v63, main_v64, main_v65, main_v66, main_v67, main_cst_14, main_v68, main_v69, main_v70, main_v71, main_v72, main_v73]
theorem agg2_writes_sub : (hostOps2 : List (HloOp τ sig (Elt F))).Forall fun op => op.writes ⊆ (agg2_writes.map (Proc.devRef (τ := τ) .tc)).toFinset := by
  simp only [List.Forall]; exact ⟨by names_its_result,
    by names_its_result,
    by names_its_result,
    by names_its_result,
    by names_its_result,
    by names_its_result,
    by names_its_result,
    by names_its_result,
    by names_its_result,
    by names_its_result,
    by names_its_result,
    by names_its_result,
    by names_its_result,
    by names_its_result,
    by names_its_result,
    by names_its_result,
    by names_its_result,
    by names_its_result,
    by names_its_result⟩
/-- Any other buffer passes through it. -/
theorem agg2_keeps (c : Dev nD) (r : Ref sig .tc) (h : r ∉ agg2_writes) :
    W8 m ρ c (Proc.devRef .tc r) = W7 m ρ c (Proc.devRef .tc r) :=
  StableHlo.after_of_writes_sub hostOps2 _ agg2_writes_sub h

/-- The buffers written by the second `relu`. -/
abbrev relu2_writes : List (Ref sig .tc) := [main_call2_cst, main_call2_v0, main_v74]
theorem relu2_writes_sub : (hostOps2_1 : List (HloOp τ sig (Elt F))).Forall fun op => op.writes ⊆ (relu2_writes.map (Proc.devRef (τ := τ) .tc)).toFinset := by
  simp only [List.Forall]; exact ⟨by names_its_result,
    by names_its_result,
    by names_its_result⟩
/-- Any other buffer passes through it. -/
theorem relu2_keeps (c : Dev nD) (r : Ref sig .tc) (h : r ∉ relu2_writes) :
    W9 m ρ c (Proc.devRef .tc r) = W8 m ρ c (Proc.devRef .tc r) :=
  StableHlo.after_of_writes_sub hostOps2_1 _ relu2_writes_sub h

/-- The buffers written by the third aggregation and the mean pooling. -/
abbrev pool_writes : List (Ref sig .tc) := [main_v76, main_c_15, main_v77, main_v78, main_c_16, main_v79, main_v80, main_v81, main_v82, main_v83, main_v84, main_v85, main_cst_17, main_v86, main_v87, main_v88, main_v89, main_v90, main_v91, main_cst_18, main_v92, main_v93, main_v94, main_cst_19, main_v95, main_cst_20, main_v96, main_v97, main_v98, main_cst_21, main_v99, main_v100, main_v101, main_v102]
theorem pool_writes_sub : (hostOps3 : List (HloOp τ sig (Elt F))).Forall fun op => op.writes ⊆ (pool_writes.map (Proc.devRef (τ := τ) .tc)).toFinset := by
  simp only [List.Forall]; exact ⟨by names_its_result,
    by names_its_result,
    by names_its_result,
    by names_its_result,
    by names_its_result,
    by names_its_result,
    by names_its_result,
    by names_its_result,
    by names_its_result,
    by names_its_result,
    by names_its_result,
    by names_its_result,
    by names_its_result,
    by names_its_result,
    by names_its_result,
    by names_its_result,
    by names_its_result,
    by names_its_result,
    by names_its_result,
    by names_its_result,
    by names_its_result,
    by names_its_result,
    by names_its_result,
    by names_its_result,
    by names_its_result,
    by names_its_result,
    by names_its_result,
    by names_its_result,
    by names_its_result,
    by names_its_result,
    by names_its_result,
    by names_its_result,
    by names_its_result,
    by names_its_result⟩
/-- Any other buffer passes through it. -/
theorem pool_keeps (c : Dev nD) (r : Ref sig .tc) (h : r ∉ pool_writes) :
    W11 m ρ c (Proc.devRef .tc r) = W10 m ρ c (Proc.devRef .tc r) :=
  StableHlo.after_of_writes_sub hostOps3 _ pool_writes_sub h

/-- The buffers written by the classifier's bias. -/
abbrev bias_writes : List (Ref sig .tc) := [main_v104, main_v105, main_v106]
theorem bias_writes_sub : (hostOps4 : List (HloOp τ sig (Elt F))).Forall fun op => op.writes ⊆ (bias_writes.map (Proc.devRef (τ := τ) .tc)).toFinset := by
  simp only [List.Forall]; exact ⟨by names_its_result,
    by names_its_result,
    by names_its_result⟩
/-- Any other buffer passes through it. -/
theorem bias_keeps (c : Dev nD) (r : Ref sig .tc) (h : r ∉ bias_writes) :
    W13 m ρ c (Proc.devRef .tc r) = W12 m ρ c (Proc.devRef .tc r) :=
  StableHlo.after_of_writes_sub hostOps4 _ bias_writes_sub h

end Cert.KernelIdeal.Keeps

end
-- ==== Proof.Calls.lean ====
/-
  The three small functions the program calls, each as one step on the buffers.

  `where(c, x, 0)` — which guards the inverse square root of the degrees — is three operations: the zero converted
  and broadcast, then a select. `relu(x)` is three as well: a zero, broadcast, then the maximum. Whatever the buffers
  hold when the call is entered (`V`), the call leaves in its result buffer the select, resp. the maximum, of what
  its operand buffers held.
-/
import proofs.«121246_j22273700397228_1_alg».proof.Proof.Gen.KernelIdeal.Launch
import Idealize.ShloMosaic.Lib.StableHlo.Run
import Idealize.ShloMosaic.PureOps.Ideal

set_option maxRecDepth 16384

noncomputable section

namespace Cert.KernelIdeal.Calls

open Cert.KernelIdeal Cert.KernelIdeal.Gen Idealize.ShloMosaic Idealize.ShloMosaic.TcCoe Idealize.SL.Sem Idealize.ShloMosaic.StableHlo

/-- The guard on the degrees: where the degree is positive its inverse square root, elsewhere the zero. -/
theorem where_call (V : Valuation τ sig (Elt Ideal)) : StableHlo.after hostOps0_1 V (Proc.devRef .tc main_v22)
    = select (V (Proc.devRef .tc main_v19)) (V (Proc.devRef .tc main_v21)) (broadcastInDim S50000 ![] bcast_S_S50000 (id (V (Proc.devRef .tc main_cst_5)))) := by
  dsimp only [hostOps0_1]
  after_results_simp
  rfl

/-- The first `relu`: the maximum of the layer's output and zero. -/
theorem relu1_call (V : Valuation τ sig (Elt Ideal)) : StableHlo.after hostOps1_1 V (Proc.devRef .tc main_v56)
    = maximumf (V (Proc.devRef .tc main_v55)) (broadcastInDim S50000x64 ![] bcast_S_S50000x64 (constant (F := Ideal) S_ .f32 0x00000000#32)) := by
  dsimp only [hostOps1_1]
  after_results_simp
  rfl

/-- The second `relu`. -/
theorem relu2_call (V : Valuation τ sig (Elt Ideal)) : StableHlo.after hostOps2_1 V (Proc.devRef .tc main_v74)
    = maximumf (V (Proc.devRef .tc main_v73)) (broadcastInDim S50000x64 ![] bcast_S_S50000x64 (constant (F := Ideal) S_ .f32 0x00000000#32)) := by
  dsimp only [hostOps2_1]
  after_results_simp
  rfl

end Cert.KernelIdeal.Calls

end
-- ==== Proof.LibPlainDot.lean ====
/-
  The host's plain matrix product, read at an entry.

  For a `dot_general` whose dimension numbers contract the left operand's columns against the right operand's
  rows, with no batch axis — `[M, K] × [K, N] → [M, N]` — the product on the host is, at the extended reals, the
  textbook sum: entry `(p, c)` is the sum over `k` of `lhs (p, k) · rhs (k, c)`. As for a kernel's product into a
  zero accumulator, the dimension numbers enter only through four coordinate facts about the dot's operand indices
  and the fact that exactly one axis, of extent `K`, is contracted; the lemma is general in the extents, the element
  types and the contraction precision.
-/
import Idealize.ShloMosaic.PureOps.Ideal.Laws
import Idealize.ShloMosaic.Lib.ValueIdx

noncomputable section

namespace Cert.LibPlainDot

open Idealize.ShloMosaic Idealize.ShloMosaic.ValueIdx
open scoped BigOperators

/-- Entry `(p, c)` of the host's `lhs · rhs` is `Σ k, lhs (p, k) · rhs (k, c)`: the dot's sum over its one-axis
    contraction index, re-indexed along the bijection of that index with `Fin K`, each operand index then identified
    by its two coordinates. -/
theorem dotGeneral_ix2 {M K N : ℕ} {φ₁ φ₂ : FTy}
    (D : DotDims ⟨2, ![M, K]⟩ ⟨2, ![K, N]⟩ ⟨2, ![M, N]⟩) (prec : Option ContractPrecision)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (lhs : FVec Ideal ⟨2, ![M, K]⟩ φ₁) (rhs : FVec Ideal ⟨2, ![K, N]⟩ φ₂) (p : Fin M) (c : Fin N) :
    Host.dotGeneral D prec lhs rhs (ix2 p c) = ∑ k : Fin K, lhs (ix2 p k) * rhs (ix2 k c) := by
  simp only [Host.dotGeneral]
  rw [Ideal.dotGeneral_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Cert.LibPlainDot

end
-- ==== Proof.Spec.lean ====
/-
  The two matrix products of the network, as the host computes them.

  `feat A W` is the product of a 50000 × 64 feature matrix with a 64 × 64 weight (one per hidden layer), `logits A W`
  the product of the 64 × 64 pooled features with the 64 × 10 classifier weight. Each is the host's `dot_general`
  contracting the left operand's columns against the right operand's rows, so at the extended reals entry `(r, c)` is
  the sum over `k` of `A (r, k) · W (k, c)`.
-/
import proofs.«121246_j22273700397228_1_alg».proof.Proof.Gen.ReferenceIdeal.Read
import proofs.«121246_j22273700397228_1_alg».proof.Proof.LibPlainDot

noncomputable section

namespace Cert.Spec

open Idealize.ShloMosaic Idealize.ShloMosaic.ValueIdx Cert.ReferenceIdeal
open scoped BigOperators

/-- A hidden layer's linear map: all 50000 rows against one 64 × 64 weight. -/
def feat (A : FVec Ideal S50000x64 .f32) (W : FVec Ideal S64x64 .f32) : FVec Ideal S50000x64 .f32 :=
  Host.dotGeneral (F := Ideal) dot_S50000x64_S64x64_S50000x64_1_0_0_1_n_n none A W

/-- The classifier's linear map: the 64 pooled rows against the 64 × 10 weight. -/
def logits (A : FVec Ideal S64x64 .f32) (W : FVec Ideal S64x10 .f32) : FVec Ideal S64x10 .f32 :=
  Host.dotGeneral (F := Ideal) dot_S64x64_S64x10_S64x10_1_0_0_1_n_n none A W

theorem feat_entry (A : FVec Ideal S50000x64 .f32) (W : FVec Ideal S64x64 .f32) (r : Fin 50000) (c : Fin 64) :
    feat A W (ix2 r c) = ∑ k : Fin 64, A (ix2 r k) * W (ix2 k c) := by
  unfold feat
  exact Cert.LibPlainDot.dotGeneral_ix2 dot_S50000x64_S64x64_S50000x64_1_0_0_1_n_n none rfl rfl
    Read.lhs_main_v39_0 Read.lhs_main_v39_1 Read.rhs_main_v39_0 Read.rhs_main_v39_1 A W r c

theorem logits_entry (A : FVec Ideal S64x64 .f32) (W : FVec Ideal S64x10 .f32) (r : Fin 64) (c : Fin 10) :
    logits A W (ix2 r c) = ∑ k : Fin 64, A (ix2 r k) * W (ix2 k c) := by
  unfold logits
  exact Cert.LibPlainDot.dotGeneral_ix2 dot_S64x64_S64x10_S64x10_1_0_0_1_n_n none rfl rfl
    Read.lhs_main_v103_0 Read.lhs_main_v103_1 Read.rhs_main_v103_0 Read.rhs_main_v103_1 A W r c

end Cert.Spec

end
-- ==== Proof.LibPlainMatmul.lean ====
/-
  A plain matrix product into a zero accumulator, read at an entry.

  For a dot whose dimension numbers contract the left operand's columns against the right operand's rows, with no batch
  axis — `[M, K] × [K, N] → [M, N]` — the product accumulated into the zero splat is, at the extended reals, the
  textbook sum: entry `(p, c)` is the sum over `k` of `lhs (p, k) · rhs (k, c)`. The dimension numbers enter only
  through four coordinate facts about the dot's operand indices (which a literal record proves by evaluating its
  membership tests) and the fact that exactly one axis, of extent `K`, is contracted; the lemma is general in the
  extents, the element types and the contraction precision, so it serves every such product of a kernel body.
-/
import Idealize.ShloMosaic.PureOps.Ideal.Laws
import Idealize.ShloMosaic.Lib.ValueIdx

noncomputable section

namespace Cert.LibPlainMatmul

open Idealize.ShloMosaic Idealize.ShloMosaic.ValueIdx
open scoped BigOperators

/-- Entry `(p, c)` of `lhs · rhs` accumulated into zero is `Σ k, lhs (p, k) · rhs (k, c)`: the dot's sum over its
    one-axis contraction index, re-indexed along the bijection of that index with `Fin K`, each operand index then
    identified by its two coordinates. -/
theorem matmul_zero_ix2 {M K N : ℕ} {φ₁ φ₂ : FTy}
    (D : DotDims ⟨2, ![M, K]⟩ ⟨2, ![K, N]⟩ ⟨2, ![M, N]⟩) (prec : Option ContractPrecision)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (lhs : FVec Ideal ⟨2, ![M, K]⟩ φ₁) (rhs : FVec Ideal ⟨2, ![K, N]⟩ φ₂) (p : Fin M) (c : Fin N) :
    matmul D prec lhs rhs (constant ⟨2, ![M, N]⟩ .f32 0x00000000#32) (ix2 p c)
      = ∑ k : Fin K, lhs (ix2 p k) * rhs (ix2 k c) := by
  simp only [matmul]
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Cert.LibPlainMatmul

end
-- ==== Proof.Blocks.lean ====
/-
  The four matrix products of the kernel, one block at a time.

  Every launch of the kernel body loads a block of rows `x` and the whole weight `w`, narrows both to bf16 (no change at
  the extended reals), multiplies them into a zero accumulator and stores the product. So the block a grid point
  leaves holds, at row `p` and column `c`, the textbook sum over `k` of `x (p, k) · w (k, c)`: for the three hidden
  layers a block is 5000 rows of 64 features against a 64 × 64 weight, for the classifier the 64 pooled rows against
  the 64 × 10 weight. The dimension numbers of both products contract the left operand's columns against the right
  operand's rows; the four coordinate facts below say so for each record.
-/
import proofs.«121246_j22273700397228_1_alg».proof.Proof.Gen.KernelIdeal.Skeleton
import proofs.«121246_j22273700397228_1_alg».proof.Proof.LibPlainMatmul
import Idealize.ShloMosaic.Lib.Pipeline.Value

noncomputable section

namespace Cert.KernelIdeal.Blocks

open Cert.KernelIdeal Cert.KernelIdeal.Gen Idealize.ShloMosaic Idealize.ShloMosaic.ValueIdx
open scoped BigOperators

/-! ## Which operand entries a product entry reads -/

theorem rows_l0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide),
    dif_pos (show (0 : Fin S5000x64.rank) ∈ dot_S5000x64_S64x64_S5000x64_1_0_0_1_n_n.lhsNonContracting by decide)]
  rfl
theorem rows_l1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem rows_r0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem rows_r1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide),
    dif_pos (show (1 : Fin S64x64.rank) ∈ dot_S5000x64_S64x64_S5000x64_1_0_0_1_n_n.rhsNonContracting by decide)]
  rfl

theorem cls_l0 (i : S64x10.Idx) (q : dot_S64x64_S64x10_S64x10_1_0_0_1_n_n.contr.Idx) :
    (dot_S64x64_S64x10_S64x10_1_0_0_1_n_n.lhsIdx i q 0).val = (i 0).val := by
  unfold DotDims.lhsIdx
  rw [dif_neg (show ¬(0 : Fin S64x64.rank) ∈ dot_S64x64_S64x10_S64x10_1_0_0_1_n_n.lhsBatch by decide),
    dif_pos (show (0 : Fin S64x64.rank) ∈ dot_S64x64_S64x10_S64x10_1_0_0_1_n_n.lhsNonContracting by decide)]
  rfl
theorem cls_l1 (i : S64x10.Idx) (q : dot_S64x64_S64x10_S64x10_1_0_0_1_n_n.contr.Idx) :
    (dot_S64x64_S64x10_S64x10_1_0_0_1_n_n.lhsIdx i q 1).val = (q ⟨0, by decide⟩).val :=
  dot_S64x64_S64x10_S64x10_1_0_0_1_n_n.lhsIdx_val_of_single rfl i q
theorem cls_r0 (i : S64x10.Idx) (q : dot_S64x64_S64x10_S64x10_1_0_0_1_n_n.contr.Idx) :
    (dot_S64x64_S64x10_S64x10_1_0_0_1_n_n.rhsIdx i q 0).val = (q ⟨0, by decide⟩).val :=
  dot_S64x64_S64x10_S64x10_1_0_0_1_n_n.rhsIdx_val_of_single rfl i q
theorem cls_r1 (i : S64x10.Idx) (q : dot_S64x64_S64x10_S64x10_1_0_0_1_n_n.contr.Idx) :
    (dot_S64x64_S64x10_S64x10_1_0_0_1_n_n.rhsIdx i q 1).val = (i 1).val := by
  unfold DotDims.rhsIdx
  rw [dif_neg (show ¬(1 : Fin S64x10.rank) ∈ dot_S64x64_S64x10_S64x10_1_0_0_1_n_n.rhsBatch by decide),
    dif_pos (show (1 : Fin S64x10.rank) ∈ dot_S64x64_S64x10_S64x10_1_0_0_1_n_n.rhsNonContracting by decide)]
  rfl

/-! ## A block of a hidden layer's product, and the classifier's -/

/-- Layer 1: entry `(p, c)` of the stored block is `Σ k, x (p, k) · w (k, c)`. -/
theorem layer1_entry (x : Vec Ideal S5000x64 .f32) (w : Vec Ideal S64x64 .f32) (p : Fin 5000) (c : Fin 64) :
    k0_pay1 (F := Ideal) x w (ix2 p c) = ∑ k : Fin 64, x (ix2 p k) * w (ix2 k c) := by
  unfold k0_pay1
  exact Cert.LibPlainMatmul.matmul_zero_ix2 dot_S5000x64_S64x64_S5000x64_1_0_0_1_n_n none rfl rfl
    rows_l0 rows_l1 rows_r0 rows_r1 _ _ p c

/-- Layer 2 (the block is first cast to its own shape, which changes nothing). -/
theorem layer2_entry (x : Vec Ideal S5000x64 .f32) (w : Vec Ideal S64x64 .f32) (p : Fin 5000) (c : Fin 64) :
    k1_pay1 (F := Ideal) x w (ix2 p c) = ∑ k : Fin 64, x (ix2 p k) * w (ix2 k c) := by
  unfold k1_pay1
  simp only [shapeCast_self]
  exact Cert.LibPlainMatmul.matmul_zero_ix2 dot_S5000x64_S64x64_S5000x64_1_0_0_1_n_n none rfl rfl
    rows_l0 rows_l1 rows_r0 rows_r1 _ _ p c

/-- Layer 3. -/
theorem layer3_entry (x : Vec Ideal S5000x64 .f32) (w : Vec Ideal S64x64 .f32) (p : Fin 5000) (c : Fin 64) :
    k2_pay1 (F := Ideal) x w (ix2 p c) = ∑ k : Fin 64, x (ix2 p k) * w (ix2 k c) := by
  unfold k2_pay1
  simp only [shapeCast_self]
  exact Cert.LibPlainMatmul.matmul_zero_ix2 dot_S5000x64_S64x64_S5000x64_1_0_0_1_n_n none rfl rfl
    rows_l0 rows_l1 rows_r0 rows_r1 _ _ p c

/-- The classifier: entry `(p, c)` of the 64 × 10 result is `Σ k, x (p, k) · w (k, c)` over the 64 pooled features. -/
theorem classifier_entry (x : Vec Ideal S64x64 .f32) (w : Vec Ideal S64x10 .f32) (p : Fin 64) (c : Fin 10) :
    k3_pay1 (F := Ideal) x w (ix2 p c) = ∑ k : Fin 64, x (ix2 p k) * w (ix2 k c) := by
  unfold k3_pay1
  simp only [shapeCast_self]
  exact Cert.LibPlainMatmul.matmul_zero_ix2 dot_S64x64_S64x10_S64x10_1_0_0_1_n_n none rfl rfl
    cls_l0 cls_l1 cls_r0 cls_r1 _ _ p c

end Cert.KernelIdeal.Blocks

end
-- ==== Proof.Layer3.lean ====
/-
  Hidden layer 3: the array the launch leaves is the host's product of the arrays it found.

  The launch walks ten grid points. Point `t` fetches rows `5000 t … 5000 t + 4999` of the feature matrix and the whole
  weight, and writes back the block product to the same rows of the result. Row `5000 t + p` of the result is
  therefore `Σ k, A (5000 t + p, k) · W (k, c)`, which is row `5000 t + p` of the whole product `A · W`; the ten blocks
  tile the 50000 rows, so the array ends as `A · W`. Nothing here depends on what the arrays hold: the statement is
  for any contents `V` of the buffers when the launch is entered.
-/
import proofs.«121246_j22273700397228_1_alg».proof.Proof.Gen.KernelIdeal.Frame
import proofs.«121246_j22273700397228_1_alg».proof.Proof.Blocks
import proofs.«121246_j22273700397228_1_alg».proof.Proof.Spec

set_option maxRecDepth 16384

noncomputable section

namespace Cert.KernelIdeal.Layer3

open Cert.KernelIdeal Cert.KernelIdeal.Gen Idealize.ShloMosaic Idealize.ShloMosaic.TcCoe Idealize.ShloMosaic.ValueIdx
open Idealize.SL.Sem
open Idealize.ShloMosaic.Pipeline (Dat Cfg Window)
open scoped BigOperators

variable (V : (c : Dev nD) → (b : Ref sig .tc) → Buf (Elt Ideal) ((c : Thread nD τ).loc b))

theorem zeros : (![0, 0] : Fin 2 → Nat) = fun _ => 0 := funext fun a => by fin_cases a <;> rfl

/-- The printed index maps over the ten points: the feature and result windows step one block of rows per point, the
    weight window stays put. -/
theorem index_maps : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 ∧ t.val < 10 :=
  (by decide +kernel : ∀ t : Fin grid2.N, _)

/-- Every block of rows is some point's. -/
theorem index_onto : ∀ q : Fin 10, ∃ t : Fin cfg2.N, win2_2.index t = ![q.val, 0] :=
  (by decide +kernel : ∀ q : Fin 10, ∃ t : Fin grid2.N, win2_2.index t = ![q.val, 0])

/-- Row `p` of the feature block at point `t` is row `5000 t + p` of the feature matrix. -/
theorem feature_block (c : Dev nD) (t : Fin cfg2.N) (p : Fin 5000) (k : Fin 64) (h : 5000 * t.val + p.val < 50000) :
    iblk2 V c 0 t (ix2 p k) = V c main_v74 (ix2 ⟨5000 * t.val + p.val, h⟩ k) := by
  show V c main_v74 (((cfg2.win 0).blk t).view.emb (ix2 p k)) = _
  refine congrArg (V c main_v74) ?_
  obtain ⟨e0, e1, -, -, -, -, -⟩ := index_maps t
  funext a; apply Fin.ext
  match a with
  | ⟨0, _⟩ => show win2_0.index t (0 : Fin 2) * 5000 + 1 * p.val = 5000 * t.val + p.val; omega
  | ⟨1, _⟩ => show win2_0.index t (1 : Fin 2) * 64 + 1 * k.val = k.val; omega

/-- The weight block at every point is the whole weight. -/
theorem weight_block (c : Dev nD) (t : Fin cfg2.N) (k : Fin 64) (q : Fin 64) :
    iblk2 V c 1 t (ix2 k q) = V c main_arg8 (ix2 k q) := by
  show V c main_arg8 (((cfg2.win 1).blk t).view.emb (ix2 k q)) = _
  refine congrArg (V c main_arg8) ?_
  obtain ⟨-, -, e2, e3, -, -, -⟩ := index_maps t
  funext a; apply Fin.ext
  match a with
  | ⟨0, _⟩ => show win2_1.index t (0 : Fin 2) * 64 + 1 * k.val = k.val; omega
  | ⟨1, _⟩ => show win2_1.index t (1 : Fin 2) * 64 + 1 * q.val = q.val; omega

/-- What point `t` writes back is block `t` of the whole product. -/
theorem written_back (c : Dev nD) (t : Fin cfg2.N) :
    (dat2 V c).flushed 2 t
      = ((cfg2.win 2).blk t).view.read (Elt Ideal) (Cert.Spec.feat (V c main_v74) (V c main_arg8)) := by
  show (cfg2.win 2).cut (grid2.coords t) ((dat2 V c).after 2 t) = _
  rw [after2_2]
  unfold out2_2
  rw [View.canon_unit_zero zeros]
  simp only [View.ld_unit_zero (S := S5000x64) zeros, View.ld_unit_zero (S := S64x64) zeros]
  obtain ⟨-, -, -, -, e4, e5, ht⟩ := index_maps t
  funext j
  obtain ⟨p, q, rfl⟩ : ∃ (p : Fin 5000) (q : Fin 64), j = ix2 p q := ⟨j 0, j 1, eq_ix2 j⟩
  have hrow : 5000 * t.val + p.val < 50000 := by have := p.isLt; omega
  have hemb : ((cfg2.win 2).blk t).view.emb (ix2 p q) = ix2 (⟨5000 * t.val + p.val, hrow⟩ : Fin 50000) q := by
    funext a; apply Fin.ext
    match a with
    | ⟨0, _⟩ => show win2_2.index t (0 : Fin 2) * 5000 + 1 * p.val = 5000 * t.val + p.val; omega
    | ⟨1, _⟩ => show win2_2.index t (1 : Fin 2) * 64 + 1 * q.val = q.val; omega
  refine (Blocks.layer3_entry _ _ p q).trans ?_
  show _ = Cert.Spec.feat (V c main_v74) (V c main_arg8) (((cfg2.win 2).blk t).view.emb (ix2 p q))
  rw [hemb, Cert.Spec.feat_entry]
  refine Finset.sum_congr rfl fun k _ => ?_
  rw [feature_block V c t p k hrow, weight_block V c t k q]

/-- An index of the result is in point `t`'s block iff each coordinate is in the block's range on its axis. -/
theorem mem_block (t : Fin cfg2.N) (i : S50000x64.Idx) :
    i ∈ ((cfg2.win 2).blk t).view.set ↔ ∀ a : Fin 2, win2_2.index t a * S5000x64.size a ≤ (i a).val
      ∧ (i a).val < win2_2.index t a * S5000x64.size a + S5000x64.size a := by
  show i ∈ ((View.whole main_v75).slice (win2_2.rect t)).set ↔ _
  rw [View.set_slice_whole, Rect.mem_set_unit]
  exact Iff.rfl

/-- The ten blocks tile the result: row `r` is in the block of point `r / 5000`. -/
theorem tiled (i : S50000x64.Idx) :
    ∃ t : Fin cfg2.N, (cfg2.win 2).flush t = true ∧ i ∈ ((cfg2.win 2).blk t).view.set := by
  have hi0 : (i 0).val < 50000 := (i 0).isLt
  have hi1 : (i 1).val < 64 := (i 1).isLt
  obtain ⟨t, ht⟩ := index_onto ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_block]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 64 ≤ (i 1).val ∧ (i 1).val < win2_2.index t (1 : Fin 2) * 64 + 64; omega

/-- THE LAYER: after the launch the result array is the host's product of the arrays the launch found. -/
theorem product (c : Dev nD) :
    (dat2 V c).arrAt 2 cfg2.N = Cert.Spec.feat (V c main_v74) (V c main_arg8) :=
  (dat2 V c).arrAt_eq_of_cover 2 _ (fun t _ => written_back V c t) (tiled)

end Cert.KernelIdeal.Layer3

end
-- ==== Proof.Classifier.lean ====
/-
  The classifier: the array the last launch leaves is the host's product of the arrays it found.

  This launch has a single grid point, whose blocks are the whole arrays: the 64 × 64 pooled features, the 64 × 10
  weight and the 64 × 10 result. The block product the point writes back is therefore the whole product, entry by
  entry `Σ k, A (r, k) · W (k, c)`, and the one block covers the result. As for the hidden layers the statement is for
  any contents `V` of the buffers when the launch is entered.
-/
import proofs.«121246_j22273700397228_1_alg».proof.Proof.Gen.KernelIdeal.Frame
import proofs.«121246_j22273700397228_1_alg».proof.Proof.Blocks
import proofs.«121246_j22273700397228_1_alg».proof.Proof.Spec

set_option maxRecDepth 16384

noncomputable section

namespace Cert.KernelIdeal.Classifier

open Cert.KernelIdeal Cert.KernelIdeal.Gen Idealize.ShloMosaic Idealize.ShloMosaic.TcCoe Idealize.ShloMosaic.ValueIdx
open Idealize.SL.Sem
open Idealize.ShloMosaic.Pipeline (Dat Cfg Window)
open scoped BigOperators

variable (V : (c : Dev nD) → (b : Ref sig .tc) → Buf (Elt Ideal) ((c : Thread nD τ).loc b))

theorem zeros : (![0, 0] : Fin 2 → Nat) = fun _ => 0 := funext fun a => by fin_cases a <;> rfl

/-- The printed index maps at the one point: every window sits at block (0, 0). -/
theorem index_maps : ∀ t : Fin cfg3.N, win3_0.index t (0 : Fin 2) = 0 ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0 :=
  (by decide +kernel : ∀ t : Fin grid3.N, _)

theorem a_point : ∃ t : Fin cfg3.N, win3_2.index t = ![0, 0] :=
  (by decide +kernel : ∃ t : Fin grid3.N, win3_2.index t = ![0, 0])

/-- The pooled-feature block is the whole array. -/
theorem pooled_block (c : Dev nD) (t : Fin cfg3.N) (p : Fin 64) (k : Fin 64) :
    iblk3 V c 0 t (ix2 p k) = V c main_v102 (ix2 p k) := by
  show V c main_v102 (((cfg3.win 0).blk t).view.emb (ix2 p k)) = _
  refine congrArg (V c main_v102) ?_
  obtain ⟨e0, e1, -, -, -, -⟩ := index_maps t
  funext a; apply Fin.ext
  match a with
  | ⟨0, _⟩ => show win3_0.index t (0 : Fin 2) * 64 + 1 * p.val = p.val; omega
  | ⟨1, _⟩ => show win3_0.index t (1 : Fin 2) * 64 + 1 * k.val = k.val; omega

/-- The weight block is the whole weight. -/
theorem weight_block (c : Dev nD) (t : Fin cfg3.N) (k : Fin 64) (q : Fin 10) :
    iblk3 V c 1 t (ix2 k q) = V c main_arg10 (ix2 k q) := by
  show V c main_arg10 (((cfg3.win 1).blk t).view.emb (ix2 k q)) = _
  refine congrArg (V c main_arg10) ?_
  obtain ⟨-, -, e2, e3, -, -⟩ := index_maps t
  funext a; apply Fin.ext
  match a with
  | ⟨0, _⟩ => show win3_1.index t (0 : Fin 2) * 64 + 1 * k.val = k.val; omega
  | ⟨1, _⟩ => show win3_1.index t (1 : Fin 2) * 10 + 1 * q.val = q.val; omega

/-- What the point writes back is the whole product. -/
theorem written_back (c : Dev nD) (t : Fin cfg3.N) :
    (dat3 V c).flushed 2 t
      = ((cfg3.win 2).blk t).view.read (Elt Ideal) (Cert.Spec.logits (V c main_v102) (V c main_arg10)) := by
  show (cfg3.win 2).cut (grid3.coords t) ((dat3 V c).after 2 t) = _
  rw [after3_2]
  unfold out3_2
  rw [View.canon_unit_zero zeros]
  simp only [View.ld_unit_zero (S := S64x64) zeros, View.ld_unit_zero (S := S64x10) zeros]
  obtain ⟨-, -, -, -, e4, e5⟩ := index_maps t
  funext j
  obtain ⟨p, q, rfl⟩ : ∃ (p : Fin 64) (q : Fin 10), j = ix2 p q := ⟨j 0, j 1, eq_ix2 j⟩
  have hemb : ((cfg3.win 2).blk t).view.emb (ix2 p q) = ix2 p q := by
    funext a; apply Fin.ext
    match a with
    | ⟨0, _⟩ => show win3_2.index t (0 : Fin 2) * 64 + 1 * p.val = p.val; omega
    | ⟨1, _⟩ => show win3_2.index t (1 : Fin 2) * 10 + 1 * q.val = q.val; omega
  refine (Blocks.classifier_entry _ _ p q).trans ?_
  show _ = Cert.Spec.logits (V c main_v102) (V c main_arg10) (((cfg3.win 2).blk t).view.emb (ix2 p q))
  rw [hemb, Cert.Spec.logits_entry]
  refine Finset.sum_congr rfl fun k _ => ?_
  rw [pooled_block V c t p k, weight_block V c t k q]

/-- An index of the result is in the point's block iff each coordinate is in the block's range on its axis. -/
theorem mem_block (t : Fin cfg3.N) (i : S64x10.Idx) :
    i ∈ ((cfg3.win 2).blk t).view.set ↔ ∀ a : Fin 2, win3_2.index t a * S64x10.size a ≤ (i a).val
      ∧ (i a).val < win3_2.index t a * S64x10.size a + S64x10.size a := by
  show i ∈ ((View.whole main_v103).slice (win3_2.rect t)).set ↔ _
  rw [View.set_slice_whole, Rect.mem_set_unit]
  exact Iff.rfl

/-- The one block is the whole result. -/
theorem tiled (i : S64x10.Idx) :
    ∃ t : Fin cfg3.N, (cfg3.win 2).flush t = true ∧ i ∈ ((cfg3.win 2).blk t).view.set := by
  have hi0 : (i 0).val < 64 := (i 0).isLt
  have hi1 : (i 1).val < 10 := (i 1).isLt
  obtain ⟨t, ht⟩ := a_point
  have q0 : win3_2.index t (0 : Fin 2) = 0 := congrFun ht 0
  have q1 : win3_2.index t (1 : Fin 2) = 0 := congrFun ht 1
  refine ⟨t, flush3_2 t, ?_⟩
  rw [mem_block]
  intro a
  match a with
  | ⟨0, _⟩ => show win3_2.index t (0 : Fin 2) * 64 ≤ (i 0).val ∧ (i 0).val < win3_2.index t (0 : Fin 2) * 64 + 64; omega
  | ⟨1, _⟩ => show win3_2.index t (1 : Fin 2) * 10 ≤ (i 1).val ∧ (i 1).val < win3_2.index t (1 : Fin 2) * 10 + 10; omega

/-- THE CLASSIFIER: after the launch the result array is the host's product of the arrays the launch found. -/
theorem product (c : Dev nD) :
    (dat3 V c).arrAt 2 cfg3.N = Cert.Spec.logits (V c main_v102) (V c main_arg10) :=
  (dat3 V c).arrAt_eq_of_cover 2 _ (fun t _ => written_back V c t) (tiled)

end Cert.KernelIdeal.Classifier

end
-- ==== Proof.Layer2.lean ====
/-
  Hidden layer 2: the array the launch leaves is the host's product of the arrays it found.

  The launch walks ten grid points. Point `t` fetches rows `5000 t … 5000 t + 4999` of the feature matrix and the whole
  weight, and writes back the block product to the same rows of the result. Row `5000 t + p` of the result is
  therefore `Σ k, A (5000 t + p, k) · W (k, c)`, which is row `5000 t + p` of the whole product `A · W`; the ten blocks
  tile the 50000 rows, so the array ends as `A · W`. Nothing here depends on what the arrays hold: the statement is
  for any contents `V` of the buffers when the launch is entered.
-/
import proofs.«121246_j22273700397228_1_alg».proof.Proof.Gen.KernelIdeal.Frame
import proofs.«121246_j22273700397228_1_alg».proof.Proof.Blocks
import proofs.«121246_j22273700397228_1_alg».proof.Proof.Spec

set_option maxRecDepth 16384

noncomputable section

namespace Cert.KernelIdeal.Layer2

open Cert.KernelIdeal Cert.KernelIdeal.Gen Idealize.ShloMosaic Idealize.ShloMosaic.TcCoe Idealize.ShloMosaic.ValueIdx
open Idealize.SL.Sem
open Idealize.ShloMosaic.Pipeline (Dat Cfg Window)
open scoped BigOperators

variable (V : (c : Dev nD) → (b : Ref sig .tc) → Buf (Elt Ideal) ((c : Thread nD τ).loc b))

theorem zeros : (![0, 0] : Fin 2 → Nat) = fun _ => 0 := funext fun a => by fin_cases a <;> rfl

/-- The printed index maps over the ten points: the feature and result windows step one block of rows per point, the
    weight window stays put. -/
theorem index_maps : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 ∧ t.val < 10 :=
  (by decide +kernel : ∀ t : Fin grid1.N, _)

/-- Every block of rows is some point's. -/
theorem index_onto : ∀ q : Fin 10, ∃ t : Fin cfg1.N, win1_2.index t = ![q.val, 0] :=
  (by decide +kernel : ∀ q : Fin 10, ∃ t : Fin grid1.N, win1_2.index t = ![q.val, 0])

/-- Row `p` of the feature block at point `t` is row `5000 t + p` of the feature matrix. -/
theorem feature_block (c : Dev nD) (t : Fin cfg1.N) (p : Fin 5000) (k : Fin 64) (h : 5000 * t.val + p.val < 50000) :
    iblk1 V c 0 t (ix2 p k) = V c main_v56 (ix2 ⟨5000 * t.val + p.val, h⟩ k) := by
  show V c main_v56 (((cfg1.win 0).blk t).view.emb (ix2 p k)) = _
  refine congrArg (V c main_v56) ?_
  obtain ⟨e0, e1, -, -, -, -, -⟩ := index_maps t
  funext a; apply Fin.ext
  match a with
  | ⟨0, _⟩ => show win1_0.index t (0 : Fin 2) * 5000 + 1 * p.val = 5000 * t.val + p.val; omega
  | ⟨1, _⟩ => show win1_0.index t (1 : Fin 2) * 64 + 1 * k.val = k.val; omega

/-- The weight block at every point is the whole weight. -/
theorem weight_block (c : Dev nD) (t : Fin cfg1.N) (k : Fin 64) (q : Fin 64) :
    iblk1 V c 1 t (ix2 k q) = V c main_arg6 (ix2 k q) := by
  show V c main_arg6 (((cfg1.win 1).blk t).view.emb (ix2 k q)) = _
  refine congrArg (V c main_arg6) ?_
  obtain ⟨-, -, e2, e3, -, -, -⟩ := index_maps t
  funext a; apply Fin.ext
  match a with
  | ⟨0, _⟩ => show win1_1.index t (0 : Fin 2) * 64 + 1 * k.val = k.val; omega
  | ⟨1, _⟩ => show win1_1.index t (1 : Fin 2) * 64 + 1 * q.val = q.val; omega

/-- What point `t` writes back is block `t` of the whole product. -/
theorem written_back (c : Dev nD) (t : Fin cfg1.N) :
    (dat1 V c).flushed 2 t
      = ((cfg1.win 2).blk t).view.read (Elt Ideal) (Cert.Spec.feat (V c main_v56) (V c main_arg6)) := by
  show (cfg1.win 2).cut (grid1.coords t) ((dat1 V c).after 2 t) = _
  rw [after1_2]
  unfold out1_2
  rw [View.canon_unit_zero zeros]
  simp only [View.ld_unit_zero (S := S5000x64) zeros, View.ld_unit_zero (S := S64x64) zeros]
  obtain ⟨-, -, -, -, e4, e5, ht⟩ := index_maps t
  funext j
  obtain ⟨p, q, rfl⟩ : ∃ (p : Fin 5000) (q : Fin 64), j = ix2 p q := ⟨j 0, j 1, eq_ix2 j⟩
  have hrow : 5000 * t.val + p.val < 50000 := by have := p.isLt; omega
  have hemb : ((cfg1.win 2).blk t).view.emb (ix2 p q) = ix2 (⟨5000 * t.val + p.val, hrow⟩ : Fin 50000) q := by
    funext a; apply Fin.ext
    match a with
    | ⟨0, _⟩ => show win1_2.index t (0 : Fin 2) * 5000 + 1 * p.val = 5000 * t.val + p.val; omega
    | ⟨1, _⟩ => show win1_2.index t (1 : Fin 2) * 64 + 1 * q.val = q.val; omega
  refine (Blocks.layer2_entry _ _ p q).trans ?_
  show _ = Cert.Spec.feat (V c main_v56) (V c main_arg6) (((cfg1.win 2).blk t).view.emb (ix2 p q))
  rw [hemb, Cert.Spec.feat_entry]
  refine Finset.sum_congr rfl fun k _ => ?_
  rw [feature_block V c t p k hrow, weight_block V c t k q]

/-- An index of the result is in point `t`'s block iff each coordinate is in the block's range on its axis. -/
theorem mem_block (t : Fin cfg1.N) (i : S50000x64.Idx) :
    i ∈ ((cfg1.win 2).blk t).view.set ↔ ∀ a : Fin 2, win1_2.index t a * S5000x64.size a ≤ (i a).val
      ∧ (i a).val < win1_2.index t a * S5000x64.size a + S5000x64.size a := by
  show i ∈ ((View.whole main_v57).slice (win1_2.rect t)).set ↔ _
  rw [View.set_slice_whole, Rect.mem_set_unit]
  exact Iff.rfl

/-- The ten blocks tile the result: row `r` is in the block of point `r / 5000`. -/
theorem tiled (i : S50000x64.Idx) :
    ∃ t : Fin cfg1.N, (cfg1.win 2).flush t = true ∧ i ∈ ((cfg1.win 2).blk t).view.set := by
  have hi0 : (i 0).val < 50000 := (i 0).isLt
  have hi1 : (i 1).val < 64 := (i 1).isLt
  obtain ⟨t, ht⟩ := index_onto ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [mem_block]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 64 ≤ (i 1).val ∧ (i 1).val < win1_2.index t (1 : Fin 2) * 64 + 64; omega

/-- THE LAYER: after the launch the result array is the host's product of the arrays the launch found. -/
theorem product (c : Dev nD) :
    (dat1 V c).arrAt 2 cfg1.N = Cert.Spec.feat (V c main_v56) (V c main_arg6) :=
  (dat1 V c).arrAt_eq_of_cover 2 _ (fun t _ => written_back V c t) (tiled)

end Cert.KernelIdeal.Layer2

end
-- ==== Proof.Layer1.lean ====
/-
  Hidden layer 1: the array the launch leaves is the host's product of the arrays it found.

  The launch walks ten grid points. Point `t` fetches rows `5000 t … 5000 t + 4999` of the feature matrix and the whole
  weight, and writes back the block product to the same rows of the result. Row `5000 t + p` of the result is
  therefore `Σ k, A (5000 t + p, k) · W (k, c)`, which is row `5000 t + p` of the whole product `A · W`; the ten blocks
  tile the 50000 rows, so the array ends as `A · W`. Nothing here depends on what the arrays hold: the statement is
  for any contents `V` of the buffers when the launch is entered.
-/
import proofs.«121246_j22273700397228_1_alg».proof.Proof.Gen.KernelIdeal.Frame
import proofs.«121246_j22273700397228_1_alg».proof.Proof.Blocks
import proofs.«121246_j22273700397228_1_alg».proof.Proof.Spec

set_option maxRecDepth 16384

noncomputable section

namespace Cert.KernelIdeal.Layer1

open Cert.KernelIdeal Cert.KernelIdeal.Gen Idealize.ShloMosaic Idealize.ShloMosaic.TcCoe Idealize.ShloMosaic.ValueIdx
open Idealize.SL.Sem
open Idealize.ShloMosaic.Pipeline (Dat Cfg Window)
open scoped BigOperators

variable (V : (c : Dev nD) → (b : Ref sig .tc) → Buf (Elt Ideal) ((c : Thread nD τ).loc b))

theorem zeros : (![0, 0] : Fin 2 → Nat) = fun _ => 0 := funext fun a => by fin_cases a <;> rfl

/-- The printed index maps over the ten points: the feature and result windows step one block of rows per point, the
    weight window stays put. -/
theorem index_maps : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 ∧ t.val < 10 :=
  (by decide +kernel : ∀ t : Fin grid0.N, _)

/-- Every block of rows is some point's. -/
theorem index_onto : ∀ q : Fin 10, ∃ t : Fin cfg0.N, win0_2.index t = ![q.val, 0] :=
  (by decide +kernel : ∀ q : Fin 10, ∃ t : Fin grid0.N, win0_2.index t = ![q.val, 0])

/-- Row `p` of the feature block at point `t` is row `5000 t + p` of the feature matrix. -/
theorem feature_block (c : Dev nD) (t : Fin cfg0.N) (p : Fin 5000) (k : Fin 64) (h : 5000 * t.val + p.val < 50000) :
    iblk0 V c 0 t (ix2 p k) = V c main_arg0 (ix2 ⟨5000 * t.val + p.val, h⟩ k) := by
  show V c main_arg0 (((cfg0.win 0).blk t).view.emb (ix2 p k)) = _
  refine congrArg (V c main_arg0) ?_
  obtain ⟨e0, e1, -, -, -, -, -⟩ := index_maps t
  funext a; apply Fin.ext
  match a with
  | ⟨0, _⟩ => show win0_0.index t (0 : Fin 2) * 5000 + 1 * p.val = 5000 * t.val + p.val; omega
  | ⟨1, _⟩ => show win0_0.index t (1 : Fin 2) * 64 + 1 * k.val = k.val; omega

/-- The weight block at every point is the whole weight. -/
theorem weight_block (c : Dev nD) (t : Fin cfg0.N) (k : Fin 64) (q : Fin 64) :
    iblk0 V c 1 t (ix2 k q) = V c main_arg4 (ix2 k q) := by
  show V c main_arg4 (((cfg0.win 1).blk t).view.emb (ix2 k q)) = _
  refine congrArg (V c main_arg4) ?_
  obtain ⟨-, -, e2, e3, -, -, -⟩ := index_maps t
  funext a; apply Fin.ext
  match a with
  | ⟨0, _⟩ => show win0_1.index t (0 : Fin 2) * 64 + 1 * k.val = k.val; omega
  | ⟨1, _⟩ => show win0_1.index t (1 : Fin 2) * 64 + 1 * q.val = q.val; omega

/-- What point `t` writes back is block `t` of the whole product. -/
theorem written_back (c : Dev nD) (t : Fin cfg0.N) :
    (dat0 V c).flushed 2 t
      = ((cfg0.win 2).blk t).view.read (Elt Ideal) (Cert.Spec.feat (V c main_arg0) (V c main_arg4)) := by
  show (cfg0.win 2).cut (grid0.coords t) ((dat0 V c).after 2 t) = _
  rw [after0_2]
  unfold out0_2
  rw [View.canon_unit_zero zeros]
  simp only [View.ld_unit_zero (S := S5000x64) zeros, View.ld_unit_zero (S := S64x64) zeros]
  obtain ⟨-, -, -, -, e4, e5, ht⟩ := index_maps t
  funext j
  obtain ⟨p, q, rfl⟩ : ∃ (p : Fin 5000) (q : Fin 64), j = ix2 p q := ⟨j 0, j 1, eq_ix2 j⟩
  have hrow : 5000 * t.val + p.val < 50000 := by have := p.isLt; omega
  have hemb : ((cfg0.win 2).blk t).view.emb (ix2 p q) = ix2 (⟨5000 * t.val + p.val, hrow⟩ : Fin 50000) q := by
    funext a; apply Fin.ext
    match a with
    | ⟨0, _⟩ => show win0_2.index t (0 : Fin 2) * 5000 + 1 * p.val = 5000 * t.val + p.val; omega
    | ⟨1, _⟩ => show win0_2.index t (1 : Fin 2) * 64 + 1 * q.val = q.val; omega
  refine (Blocks.layer1_entry _ _ p q).trans ?_
  show _ = Cert.Spec.feat (V c main_arg0) (V c main_arg4) (((cfg0.win 2).blk t).view.emb (ix2 p q))
  rw [hemb, Cert.Spec.feat_entry]
  refine Finset.sum_congr rfl fun k _ => ?_
  rw [feature_block V c t p k hrow, weight_block V c t k q]

/-- An index of the result is in point `t`'s block iff each coordinate is in the block's range on its axis. -/
theorem mem_block (t : Fin cfg0.N) (i : S50000x64.Idx) :
    i ∈ ((cfg0.win 2).blk t).view.set ↔ ∀ a : Fin 2, win0_2.index t a * S5000x64.size a ≤ (i a).val
      ∧ (i a).val < win0_2.index t a * S5000x64.size a + S5000x64.size a := by
  show i ∈ ((View.whole main_v39).slice (win0_2.rect t)).set ↔ _
  rw [View.set_slice_whole, Rect.mem_set_unit]
  exact Iff.rfl

/-- The ten blocks tile the result: row `r` is in the block of point `r / 5000`. -/
theorem tiled (i : S50000x64.Idx) :
    ∃ t : Fin cfg0.N, (cfg0.win 2).flush t = true ∧ i ∈ ((cfg0.win 2).blk t).view.set := by
  have hi0 : (i 0).val < 50000 := (i 0).isLt
  have hi1 : (i 1).val < 64 := (i 1).isLt
  obtain ⟨t, ht⟩ := index_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-- THE LAYER: after the launch the result array is the host's product of the arrays the launch found. -/
theorem product (c : Dev nD) :
    (dat0 V c).arrAt 2 cfg0.N = Cert.Spec.feat (V c main_arg0) (V c main_arg4) :=
  (dat0 V c).arrAt_eq_of_cover 2 _ (fun t _ => written_back V c t) (tiled)

end Cert.KernelIdeal.Layer1

end
-- ==== Proof.Chain0.lean ====
/-
  Before the first launch: the edge lists, the edge weights and the normalisation.

  The program's buffers are followed boundary by boundary. At each boundary the buffers that later steps read are
  shown to hold the value the reference's own run computes for the same statement (its stage `val_main_vN` of the
  argument arrays): here the two edge lists with their self loops (`v5`, `v6`), the edge weights (`v14`), the degree
  test and the inverse square roots (`v19`, `v21`), their guarded form (`v22`), and the edge normalisation
  `dis[fr] · w · dis[fc]` (`v38`). Both programs apply the same host operations here, so each fact is the same term
  on both sides; a stretch is read over an arbitrary valuation with its inputs as hypotheses, so that no earlier
  stretch is ever opened again.
-/
import proofs.«121246_j22273700397228_1_alg».proof.Proof.Gen.KernelIdeal.Frame
import proofs.«121246_j22273700397228_1_alg».proof.Proof.Gen.ReferenceIdeal.Read
import proofs.«121246_j22273700397228_1_alg».proof.Proof.Keeps
import proofs.«121246_j22273700397228_1_alg».proof.Proof.Calls

set_option maxRecDepth 16384

noncomputable section

namespace Cert.KernelIdeal.Chain

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg)

/-! ## After the first stretch -/

/-- The source list with its self loops. -/
theorem at1_v5 (c : Dev nD) : W1 m ρ c (Proc.devRef .tc main_v5) = Cert.ReferenceIdeal.Read.val_main_v5 (F := Ideal) (m ((c : Thread nD τ).loc main_arg1)) := by
  dsimp only [W1, W0, hostOps0]
  after_results_simp
  rfl
/-- The target list with its self loops. -/
theorem at1_v6 (c : Dev nD) : W1 m ρ c (Proc.devRef .tc main_v6) = Cert.ReferenceIdeal.Read.val_main_v6 (F := Ideal) (m ((c : Thread nD τ).loc main_arg1)) := by
  dsimp only [W1, W0, hostOps0]
  after_results_simp
  rfl
/-- The edge weights: the logistic of the perturbation on the edges, one on the self loops. -/
theorem at1_v14 (c : Dev nD) : W1 m ρ c (Proc.devRef .tc main_v14) = Cert.ReferenceIdeal.Read.val_main_v14 (F := Ideal) (m ((c : Thread nD τ).loc main_arg3)) := by
  dsimp only [W1, W0, hostOps0]
  after_results_simp
  rfl
/-- Which degrees are positive. -/
theorem at1_v19 (c : Dev nD) : W1 m ρ c (Proc.devRef .tc main_v19) = Cert.ReferenceIdeal.Read.val_main_v19 (F := Ideal) (m ((c : Thread nD τ).loc main_arg1)) (m ((c : Thread nD τ).loc main_arg3)) := by
  dsimp only [W1, W0, hostOps0]
  after_results_simp
  rfl
/-- The degrees to the power minus one half. -/
theorem at1_v21 (c : Dev nD) : W1 m ρ c (Proc.devRef .tc main_v21) = Cert.ReferenceIdeal.Read.val_main_v21 (F := Ideal) (m ((c : Thread nD τ).loc main_arg1)) (m ((c : Thread nD τ).loc main_arg3)) := by
  dsimp only [W1, W0, hostOps0]
  after_results_simp
  rfl
/-- The zero the guard falls back to. -/
theorem at1_cst_5 (c : Dev nD) : W1 m ρ c (Proc.devRef .tc main_cst_5) = Cert.ReferenceIdeal.Read.val_main_cst_5 (F := Ideal) := by
  dsimp only [W1, W0, hostOps0]
  after_results_simp
  rfl

/-! ## After the guard -/

/-- The guarded inverse square root of the degrees. -/
theorem at2_v22 (c : Dev nD) : W2 m ρ c (Proc.devRef .tc main_v22) = Cert.ReferenceIdeal.Read.val_main_v22 (F := Ideal) (m ((c : Thread nD τ).loc main_arg1)) (m ((c : Thread nD τ).loc main_arg3)) := by
  refine (Calls.where_call (W1 m ρ c)).trans ?_
  rw [at1_v19 m ρ c, at1_v21 m ρ c, at1_cst_5 m ρ c]
  rfl
theorem at2_v5 (c : Dev nD) : W2 m ρ c (Proc.devRef .tc main_v5) = Cert.ReferenceIdeal.Read.val_main_v5 (F := Ideal) (m ((c : Thread nD τ).loc main_arg1)) :=
  (Keeps.preCall_keeps m ρ c main_v5 (by decide)).trans (at1_v5 m ρ c)
theorem at2_v6 (c : Dev nD) : W2 m ρ c (Proc.devRef .tc main_v6) = Cert.ReferenceIdeal.Read.val_main_v6 (F := Ideal) (m ((c : Thread nD τ).loc main_arg1)) :=
  (Keeps.preCall_keeps m ρ c main_v6 (by decide)).trans (at1_v6 m ρ c)
theorem at2_v14 (c : Dev nD) : W2 m ρ c (Proc.devRef .tc main_v14) = Cert.ReferenceIdeal.Read.val_main_v14 (F := Ideal) (m ((c : Thread nD τ).loc main_arg3)) :=
  (Keeps.preCall_keeps m ρ c main_v14 (by decide)).trans (at1_v14 m ρ c)

/-! ## At the first launch -/

/-- The edge normalisation, shared by the three layers. -/
theorem at3_v38 (c : Dev nD) : W3 m ρ c (Proc.devRef .tc main_v38) = Cert.ReferenceIdeal.Read.val_main_v38 (F := Ideal) (m ((c : Thread nD τ).loc main_arg1)) (m ((c : Thread nD τ).loc main_arg3)) := by
  have key : ∀ V : Valuation τ sig (Elt Ideal), V (Proc.devRef .tc main_v22) = Cert.ReferenceIdeal.Read.val_main_v22 (F := Ideal) (m ((c : Thread nD τ).loc main_arg1)) (m ((c : Thread nD τ).loc main_arg3)) → V (Proc.devRef .tc main_v5) = Cert.ReferenceIdeal.Read.val_main_v5 (F := Ideal) (m ((c : Thread nD τ).loc main_arg1)) → V (Proc.devRef .tc main_v6) = Cert.ReferenceIdeal.Read.val_main_v6 (F := Ideal) (m ((c : Thread nD τ).loc main_arg1)) → V (Proc.devRef .tc main_v14) = Cert.ReferenceIdeal.Read.val_main_v14 (F := Ideal) (m ((c : Thread nD τ).loc main_arg3)) →
      StableHlo.after hostOps0_2 V (Proc.devRef .tc main_v38) = Cert.ReferenceIdeal.Read.val_main_v38 (F := Ideal) (m ((c : Thread nD τ).loc main_arg1)) (m ((c : Thread nD τ).loc main_arg3)) := by
    intro V h0 h1 h2 h3
    dsimp only [hostOps0_2]
    after_results_simp
    rw [h0, h1, h2, h3]
    rfl
  exact key (W2 m ρ c) (at2_v22 m ρ c) (at2_v5 m ρ c) (at2_v6 m ρ c) (at2_v14 m ρ c)
theorem at3_v5 (c : Dev nD) : W3 m ρ c (Proc.devRef .tc main_v5) = Cert.ReferenceIdeal.Read.val_main_v5 (F := Ideal) (m ((c : Thread nD τ).loc main_arg1)) :=
  (Keeps.preNorm_keeps m ρ c main_v5 (by decide)).trans (at2_v5 m ρ c)
theorem at3_v6 (c : Dev nD) : W3 m ρ c (Proc.devRef .tc main_v6) = Cert.ReferenceIdeal.Read.val_main_v6 (F := Ideal) (m ((c : Thread nD τ).loc main_arg1)) :=
  (Keeps.preNorm_keeps m ρ c main_v6 (by decide)).trans (at2_v6 m ρ c)
theorem at3_arg0 (c : Dev nD) : W3 m ρ c (Proc.devRef .tc main_arg0) = (m ((c : Thread nD τ).loc main_arg0)) :=
  (Keeps.preNorm_keeps m ρ c main_arg0 (by decide)).trans ((Keeps.preCall_keeps m ρ c main_arg0 (by decide)).trans
    ((Keeps.pre_keeps m ρ c main_arg0 (by decide)).trans rfl))
theorem at3_arg2 (c : Dev nD) : W3 m ρ c (Proc.devRef .tc main_arg2) = (m ((c : Thread nD τ).loc main_arg2)) :=
  (Keeps.preNorm_keeps m ρ c main_arg2 (by decide)).trans ((Keeps.preCall_keeps m ρ c main_arg2 (by decide)).trans
    ((Keeps.pre_keeps m ρ c main_arg2 (by decide)).trans rfl))
theorem at3_arg4 (c : Dev nD) : W3 m ρ c (Proc.devRef .tc main_arg4) = (m ((c : Thread nD τ).loc main_arg4)) :=
  (Keeps.preNorm_keeps m ρ c main_arg4 (by decide)).trans ((Keeps.preCall_keeps m ρ c main_arg4 (by decide)).trans
    ((Keeps.pre_keeps m ρ c main_arg4 (by decide)).trans rfl))
theorem at3_arg5 (c : Dev nD) : W3 m ρ c (Proc.devRef .tc main_arg5) = (m ((c : Thread nD τ).loc main_arg5)) :=
  (Keeps.preNorm_keeps m ρ c main_arg5 (by decide)).trans ((Keeps.preCall_keeps m ρ c main_arg5 (by decide)).trans
    ((Keeps.pre_keeps m ρ c main_arg5 (by decide)).trans rfl))
theorem at3_arg6 (c : Dev nD) : W3 m ρ c (Proc.devRef .tc main_arg6) = (m ((c : Thread nD τ).loc main_arg6)) :=
  (Keeps.preNorm_keeps m ρ c main_arg6 (by decide)).trans ((Keeps.preCall_keeps m ρ c main_arg6 (by decide)).trans
    ((Keeps.pre_keeps m ρ c main_arg6 (by decide)).trans rfl))
theorem at3_arg7 (c : Dev nD) : W3 m ρ c (Proc.devRef .tc main_arg7) = (m ((c : Thread nD τ).loc main_arg7)) :=
  (Keeps.preNorm_keeps m ρ c main_arg7 (by decide)).trans ((Keeps.preCall_keeps m ρ c main_arg7 (by decide)).trans
    ((Keeps.pre_keeps m ρ c main_arg7 (by decide)).trans rfl))
theorem at3_arg8 (c : Dev nD) : W3 m ρ c (Proc.devRef .tc main_arg8) = (m ((c : Thread nD τ).loc main_arg8)) :=
  (Keeps.preNorm_keeps m ρ c main_arg8 (by decide)).trans ((Keeps.preCall_keeps m ρ c main_arg8 (by decide)).trans
    ((Keeps.pre_keeps m ρ c main_arg8 (by decide)).trans rfl))
theorem at3_arg9 (c : Dev nD) : W3 m ρ c (Proc.devRef .tc main_arg9) = (m ((c : Thread nD τ).loc main_arg9)) :=
  (Keeps.preNorm_keeps m ρ c main_arg9 (by decide)).trans ((Keeps.preCall_keeps m ρ c main_arg9 (by decide)).trans
    ((Keeps.pre_keeps m ρ c main_arg9 (by decide)).trans rfl))
theorem at3_arg10 (c : Dev nD) : W3 m ρ c (Proc.devRef .tc main_arg10) = (m ((c : Thread nD τ).loc main_arg10)) :=
  (Keeps.preNorm_keeps m ρ c main_arg10 (by decide)).trans ((Keeps.preCall_keeps m ρ c main_arg10 (by decide)).trans
    ((Keeps.pre_keeps m ρ c main_arg10 (by decide)).trans rfl))
theorem at3_arg11 (c : Dev nD) : W3 m ρ c (Proc.devRef .tc main_arg11) = (m ((c : Thread nD τ).loc main_arg11)) :=
  (Keeps.preNorm_keeps m ρ c main_arg11 (by decide)).trans ((Keeps.preCall_keeps m ρ c main_arg11 (by decide)).trans
    ((Keeps.pre_keeps m ρ c main_arg11 (by decide)).trans rfl))

end Cert.KernelIdeal.Chain

end
-- ==== Proof.Chain1.lean ====
/-
  The first hidden layer: launch, aggregation, `relu`.

  The launch leaves the host's product of the features and the first weight (the layer module), which is the
  reference's `v39`; the aggregation stretch (gather along the source list, scale by the normalisation, scatter-add
  along the target list, add the bias) and the `relu` are the reference's own operations on it.
-/
import proofs.«121246_j22273700397228_1_alg».proof.Proof.Gen.KernelIdeal.Frame
import proofs.«121246_j22273700397228_1_alg».proof.Proof.Gen.ReferenceIdeal.Read
import proofs.«121246_j22273700397228_1_alg».proof.Proof.Keeps
import proofs.«121246_j22273700397228_1_alg».proof.Proof.Calls
import proofs.«121246_j22273700397228_1_alg».proof.Proof.Spec
import proofs.«121246_j22273700397228_1_alg».proof.Proof.Layer1
import proofs.«121246_j22273700397228_1_alg».proof.Proof.Chain0

set_option maxRecDepth 16384

noncomputable section

namespace Cert.KernelIdeal.Chain

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg)

/-! ## After the first launch -/

/-- The first layer's linear map. -/
theorem at4_v39 (c : Dev nD) : W4 m ρ c (Proc.devRef .tc main_v39) = Cert.ReferenceIdeal.Read.val_main_v39 (F := Ideal) (m ((c : Thread nD τ).loc main_arg0)) (m ((c : Thread nD τ).loc main_arg4)) := by
  refine (W4_arr m ρ c 2).trans ((Layer1.product (V3 m ρ) c).trans ?_)
  show Cert.Spec.feat (W3 m ρ c (Proc.devRef .tc main_arg0)) (W3 m ρ c (Proc.devRef .tc main_arg4)) = _
  rw [at3_arg0 m ρ c, at3_arg4 m ρ c]
  rfl
theorem at4_v5 (c : Dev nD) : W4 m ρ c (Proc.devRef .tc main_v5) = Cert.ReferenceIdeal.Read.val_main_v5 (F := Ideal) (m ((c : Thread nD τ).loc main_arg1)) :=
  (W4_of_ne m ρ c main_v5 (by decide)).trans (at3_v5 m ρ c)
theorem at4_v6 (c : Dev nD) : W4 m ρ c (Proc.devRef .tc main_v6) = Cert.ReferenceIdeal.Read.val_main_v6 (F := Ideal) (m ((c : Thread nD τ).loc main_arg1)) :=
  (W4_of_ne m ρ c main_v6 (by decide)).trans (at3_v6 m ρ c)
theorem at4_v38 (c : Dev nD) : W4 m ρ c (Proc.devRef .tc main_v38) = Cert.ReferenceIdeal.Read.val_main_v38 (F := Ideal) (m ((c : Thread nD τ).loc main_arg1)) (m ((c : Thread nD τ).loc main_arg3)) :=
  (W4_of_ne m ρ c main_v38 (by decide)).trans (at3_v38 m ρ c)
theorem at4_arg2 (c : Dev nD) : W4 m ρ c (Proc.devRef .tc main_arg2) = (m ((c : Thread nD τ).loc main_arg2)) :=
  (W4_of_ne m ρ c main_arg2 (by decide)).trans (at3_arg2 m ρ c)
theorem at4_arg5 (c : Dev nD) : W4 m ρ c (Proc.devRef .tc main_arg5) = (m ((c : Thread nD τ).loc main_arg5)) :=
  (W4_of_ne m ρ c main_arg5 (by decide)).trans (at3_arg5 m ρ c)
theorem at4_arg6 (c : Dev nD) : W4 m ρ c (Proc.devRef .tc main_arg6) = (m ((c : Thread nD τ).loc main_arg6)) :=
  (W4_of_ne m ρ c main_arg6 (by decide)).trans (at3_arg6 m ρ c)
theorem at4_arg7 (c : Dev nD) : W4 m ρ c (Proc.devRef .tc main_arg7) = (m ((c : Thread nD τ).loc main_arg7)) :=
  (W4_of_ne m ρ c main_arg7 (by decide)).trans (at3_arg7 m ρ c)
theorem at4_arg8 (c : Dev nD) : W4 m ρ c (Proc.devRef .tc main_arg8) = (m ((c : Thread nD τ).loc main_arg8)) :=
  (W4_of_ne m ρ c main_arg8 (by decide)).trans (at3_arg8 m ρ c)
theorem at4_arg9 (c : Dev nD) : W4 m ρ c (Proc.devRef .tc main_arg9) = (m ((c : Thread nD τ).loc main_arg9)) :=
  (W4_of_ne m ρ c main_arg9 (by decide)).trans (at3_arg9 m ρ c)
theorem at4_arg10 (c : Dev nD) : W4 m ρ c (Proc.devRef .tc main_arg10) = (m ((c : Thread nD τ).loc main_arg10)) :=
  (W4_of_ne m ρ c main_arg10 (by decide)).trans (at3_arg10 m ρ c)
theorem at4_arg11 (c : Dev nD) : W4 m ρ c (Proc.devRef .tc main_arg11) = (m ((c : Thread nD τ).loc main_arg11)) :=
  (W4_of_ne m ρ c main_arg11 (by decide)).trans (at3_arg11 m ρ c)

/-! ## After the aggregation -/

/-- The first layer before its `relu`. -/
theorem at5_v55 (c : Dev nD) : W5 m ρ c (Proc.devRef .tc main_v55) = Cert.ReferenceIdeal.Read.val_main_v55 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  have key : ∀ V : Valuation τ sig (Elt Ideal), V (Proc.devRef .tc main_v38) = Cert.ReferenceIdeal.Read.val_main_v38 (F := Ideal) (m ((c : Thread nD τ).loc main_arg1)) (m ((c : Thread nD τ).loc main_arg3)) → V (Proc.devRef .tc main_v5) = Cert.ReferenceIdeal.Read.val_main_v5 (F := Ideal) (m ((c : Thread nD τ).loc main_arg1)) → V (Proc.devRef .tc main_v39) = Cert.ReferenceIdeal.Read.val_main_v39 (F := Ideal) (m ((c : Thread nD τ).loc main_arg0)) (m ((c : Thread nD τ).loc main_arg4)) → V (Proc.devRef .tc main_v6) = Cert.ReferenceIdeal.Read.val_main_v6 (F := Ideal) (m ((c : Thread nD τ).loc main_arg1)) → V (Proc.devRef .tc main_arg5) = (m ((c : Thread nD τ).loc main_arg5)) →
      StableHlo.after hostOps1 V (Proc.devRef .tc main_v55) = Cert.ReferenceIdeal.Read.val_main_v55 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
    intro V h0 h1 h2 h3 h4
    dsimp only [hostOps1]
    after_results_simp
    rw [h0, h1, h2, h3, h4]
    rfl
  exact key (W4 m ρ c) (at4_v38 m ρ c) (at4_v5 m ρ c) (at4_v39 m ρ c) (at4_v6 m ρ c) (at4_arg5 m ρ c)
theorem at5_v5 (c : Dev nD) : W5 m ρ c (Proc.devRef .tc main_v5) = Cert.ReferenceIdeal.Read.val_main_v5 (F := Ideal) (m ((c : Thread nD τ).loc main_arg1)) :=
  (Keeps.agg1_keeps m ρ c main_v5 (by decide)).trans (at4_v5 m ρ c)
theorem at5_v6 (c : Dev nD) : W5 m ρ c (Proc.devRef .tc main_v6) = Cert.ReferenceIdeal.Read.val_main_v6 (F := Ideal) (m ((c : Thread nD τ).loc main_arg1)) :=
  (Keeps.agg1_keeps m ρ c main_v6 (by decide)).trans (at4_v6 m ρ c)
theorem at5_v38 (c : Dev nD) : W5 m ρ c (Proc.devRef .tc main_v38) = Cert.ReferenceIdeal.Read.val_main_v38 (F := Ideal) (m ((c : Thread nD τ).loc main_arg1)) (m ((c : Thread nD τ).loc main_arg3)) :=
  (Keeps.agg1_keeps m ρ c main_v38 (by decide)).trans (at4_v38 m ρ c)
theorem at5_arg2 (c : Dev nD) : W5 m ρ c (Proc.devRef .tc main_arg2) = (m ((c : Thread nD τ).loc main_arg2)) :=
  (Keeps.agg1_keeps m ρ c main_arg2 (by decide)).trans (at4_arg2 m ρ c)
theorem at5_arg6 (c : Dev nD) : W5 m ρ c (Proc.devRef .tc main_arg6) = (m ((c : Thread nD τ).loc main_arg6)) :=
  (Keeps.agg1_keeps m ρ c main_arg6 (by decide)).trans (at4_arg6 m ρ c)
theorem at5_arg7 (c : Dev nD) : W5 m ρ c (Proc.devRef .tc main_arg7) = (m ((c : Thread nD τ).loc main_arg7)) :=
  (Keeps.agg1_keeps m ρ c main_arg7 (by decide)).trans (at4_arg7 m ρ c)
theorem at5_arg8 (c : Dev nD) : W5 m ρ c (Proc.devRef .tc main_arg8) = (m ((c : Thread nD τ).loc main_arg8)) :=
  (Keeps.agg1_keeps m ρ c main_arg8 (by decide)).trans (at4_arg8 m ρ c)
theorem at5_arg9 (c : Dev nD) : W5 m ρ c (Proc.devRef .tc main_arg9) = (m ((c : Thread nD τ).loc main_arg9)) :=
  (Keeps.agg1_keeps m ρ c main_arg9 (by decide)).trans (at4_arg9 m ρ c)
theorem at5_arg10 (c : Dev nD) : W5 m ρ c (Proc.devRef .tc main_arg10) = (m ((c : Thread nD τ).loc main_arg10)) :=
  (Keeps.agg1_keeps m ρ c main_arg10 (by decide)).trans (at4_arg10 m ρ c)
theorem at5_arg11 (c : Dev nD) : W5 m ρ c (Proc.devRef .tc main_arg11) = (m ((c : Thread nD τ).loc main_arg11)) :=
  (Keeps.agg1_keeps m ρ c main_arg11 (by decide)).trans (at4_arg11 m ρ c)

/-! ## At the second launch -/

/-- The first hidden layer. -/
theorem at6_v56 (c : Dev nD) : W6 m ρ c (Proc.devRef .tc main_v56) = Cert.ReferenceIdeal.Read.val_main_v56 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  refine (Calls.relu1_call (W5 m ρ c)).trans ?_
  rw [at5_v55 m ρ c]
  rfl
theorem at6_v5 (c : Dev nD) : W6 m ρ c (Proc.devRef .tc main_v5) = Cert.ReferenceIdeal.Read.val_main_v5 (F := Ideal) (m ((c : Thread nD τ).loc main_arg1)) :=
  (Keeps.relu1_keeps m ρ c main_v5 (by decide)).trans (at5_v5 m ρ c)
theorem at6_v6 (c : Dev nD) : W6 m ρ c (Proc.devRef .tc main_v6) = Cert.ReferenceIdeal.Read.val_main_v6 (F := Ideal) (m ((c : Thread nD τ).loc main_arg1)) :=
  (Keeps.relu1_keeps m ρ c main_v6 (by decide)).trans (at5_v6 m ρ c)
theorem at6_v38 (c : Dev nD) : W6 m ρ c (Proc.devRef .tc main_v38) = Cert.ReferenceIdeal.Read.val_main_v38 (F := Ideal) (m ((c : Thread nD τ).loc main_arg1)) (m ((c : Thread nD τ).loc main_arg3)) :=
  (Keeps.relu1_keeps m ρ c main_v38 (by decide)).trans (at5_v38 m ρ c)
theorem at6_arg2 (c : Dev nD) : W6 m ρ c (Proc.devRef .tc main_arg2) = (m ((c : Thread nD τ).loc main_arg2)) :=
  (Keeps.relu1_keeps m ρ c main_arg2 (by decide)).trans (at5_arg2 m ρ c)
theorem at6_arg6 (c : Dev nD) : W6 m ρ c (Proc.devRef .tc main_arg6) = (m ((c : Thread nD τ).loc main_arg6)) :=
  (Keeps.relu1_keeps m ρ c main_arg6 (by decide)).trans (at5_arg6 m ρ c)
theorem at6_arg7 (c : Dev nD) : W6 m ρ c (Proc.devRef .tc main_arg7) = (m ((c : Thread nD τ).loc main_arg7)) :=
  (Keeps.relu1_keeps m ρ c main_arg7 (by decide)).trans (at5_arg7 m ρ c)
theorem at6_arg8 (c : Dev nD) : W6 m ρ c (Proc.devRef .tc main_arg8) = (m ((c : Thread nD τ).loc main_arg8)) :=
  (Keeps.relu1_keeps m ρ c main_arg8 (by decide)).trans (at5_arg8 m ρ c)
theorem at6_arg9 (c : Dev nD) : W6 m ρ c (Proc.devRef .tc main_arg9) = (m ((c : Thread nD τ).loc main_arg9)) :=
  (Keeps.relu1_keeps m ρ c main_arg9 (by decide)).trans (at5_arg9 m ρ c)
theorem at6_arg10 (c : Dev nD) : W6 m ρ c (Proc.devRef .tc main_arg10) = (m ((c : Thread nD τ).loc main_arg10)) :=
  (Keeps.relu1_keeps m ρ c main_arg10 (by decide)).trans (at5_arg10 m ρ c)
theorem at6_arg11 (c : Dev nD) : W6 m ρ c (Proc.devRef .tc main_arg11) = (m ((c : Thread nD τ).loc main_arg11)) :=
  (Keeps.relu1_keeps m ρ c main_arg11 (by decide)).trans (at5_arg11 m ρ c)

end Cert.KernelIdeal.Chain

end
-- ==== Proof.Chain2.lean ====
/-
  The second hidden layer: launch, aggregation, `relu`.
-/
import proofs.«121246_j22273700397228_1_alg».proof.Proof.Gen.KernelIdeal.Frame
import proofs.«121246_j22273700397228_1_alg».proof.Proof.Gen.ReferenceIdeal.Read
import proofs.«121246_j22273700397228_1_alg».proof.Proof.Keeps
import proofs.«121246_j22273700397228_1_alg».proof.Proof.Calls
import proofs.«121246_j22273700397228_1_alg».proof.Proof.Spec
import proofs.«121246_j22273700397228_1_alg».proof.Proof.Layer2
import proofs.«121246_j22273700397228_1_alg».proof.Proof.Chain1

set_option maxRecDepth 16384

noncomputable section

namespace Cert.KernelIdeal.Chain

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg)

/-! ## After the second launch -/

/-- The second layer's linear map. -/
theorem at7_v57 (c : Dev nD) : W7 m ρ c (Proc.devRef .tc main_v57) = Cert.ReferenceIdeal.Read.val_main_v57 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  refine (W7_arr m ρ c 2).trans ((Layer2.product (V6 m ρ) c).trans ?_)
  show Cert.Spec.feat (W6 m ρ c (Proc.devRef .tc main_v56)) (W6 m ρ c (Proc.devRef .tc main_arg6)) = _
  rw [at6_v56 m ρ c, at6_arg6 m ρ c]
  rfl
theorem at7_v5 (c : Dev nD) : W7 m ρ c (Proc.devRef .tc main_v5) = Cert.ReferenceIdeal.Read.val_main_v5 (F := Ideal) (m ((c : Thread nD τ).loc main_arg1)) :=
  (W7_of_ne m ρ c main_v5 (by decide)).trans (at6_v5 m ρ c)
theorem at7_v6 (c : Dev nD) : W7 m ρ c (Proc.devRef .tc main_v6) = Cert.ReferenceIdeal.Read.val_main_v6 (F := Ideal) (m ((c : Thread nD τ).loc main_arg1)) :=
  (W7_of_ne m ρ c main_v6 (by decide)).trans (at6_v6 m ρ c)
theorem at7_v38 (c : Dev nD) : W7 m ρ c (Proc.devRef .tc main_v38) = Cert.ReferenceIdeal.Read.val_main_v38 (F := Ideal) (m ((c : Thread nD τ).loc main_arg1)) (m ((c : Thread nD τ).loc main_arg3)) :=
  (W7_of_ne m ρ c main_v38 (by decide)).trans (at6_v38 m ρ c)
theorem at7_arg2 (c : Dev nD) : W7 m ρ c (Proc.devRef .tc main_arg2) = (m ((c : Thread nD τ).loc main_arg2)) :=
  (W7_of_ne m ρ c main_arg2 (by decide)).trans (at6_arg2 m ρ c)
theorem at7_arg7 (c : Dev nD) : W7 m ρ c (Proc.devRef .tc main_arg7) = (m ((c : Thread nD τ).loc main_arg7)) :=
  (W7_of_ne m ρ c main_arg7 (by decide)).trans (at6_arg7 m ρ c)
theorem at7_arg8 (c : Dev nD) : W7 m ρ c (Proc.devRef .tc main_arg8) = (m ((c : Thread nD τ).loc main_arg8)) :=
  (W7_of_ne m ρ c main_arg8 (by decide)).trans (at6_arg8 m ρ c)
theorem at7_arg9 (c : Dev nD) : W7 m ρ c (Proc.devRef .tc main_arg9) = (m ((c : Thread nD τ).loc main_arg9)) :=
  (W7_of_ne m ρ c main_arg9 (by decide)).trans (at6_arg9 m ρ c)
theorem at7_arg10 (c : Dev nD) : W7 m ρ c (Proc.devRef .tc main_arg10) = (m ((c : Thread nD τ).loc main_arg10)) :=
  (W7_of_ne m ρ c main_arg10 (by decide)).trans (at6_arg10 m ρ c)
theorem at7_arg11 (c : Dev nD) : W7 m ρ c (Proc.devRef .tc main_arg11) = (m ((c : Thread nD τ).loc main_arg11)) :=
  (W7_of_ne m ρ c main_arg11 (by decide)).trans (at6_arg11 m ρ c)

/-! ## After the aggregation -/

/-- The second layer before its `relu`. -/
theorem at8_v73 (c : Dev nD) : W8 m ρ c (Proc.devRef .tc main_v73) = Cert.ReferenceIdeal.Read.val_main_v73 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) := by
  have key : ∀ V : Valuation τ sig (Elt Ideal), V (Proc.devRef .tc main_v38) = Cert.ReferenceIdeal.Read.val_main_v38 (F := Ideal) (m ((c : Thread nD τ).loc main_arg1)) (m ((c : Thread nD τ).loc main_arg3)) → V (Proc.devRef .tc main_v5) = Cert.ReferenceIdeal.Read.val_main_v5 (F := Ideal) (m ((c : Thread nD τ).loc main_arg1)) → V (Proc.devRef .tc main_v57) = Cert.ReferenceIdeal.Read.val_main_v57 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) → V (Proc.devRef .tc main_v6) = Cert.ReferenceIdeal.Read.val_main_v6 (F := Ideal) (m ((c : Thread nD τ).loc main_arg1)) → V (Proc.devRef .tc main_arg7) = (m ((c : Thread nD τ).loc main_arg7)) →
      StableHlo.after hostOps2 V (Proc.devRef .tc main_v73) = Cert.ReferenceIdeal.Read.val_main_v73 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) := by
    intro V h0 h1 h2 h3 h4
    dsimp only [hostOps2]
    after_results_simp
    rw [h0, h1, h2, h3, h4]
    rfl
  exact key (W7 m ρ c) (at7_v38 m ρ c) (at7_v5 m ρ c) (at7_v57 m ρ c) (at7_v6 m ρ c) (at7_arg7 m ρ c)
theorem at8_v5 (c : Dev nD) : W8 m ρ c (Proc.devRef .tc main_v5) = Cert.ReferenceIdeal.Read.val_main_v5 (F := Ideal) (m ((c : Thread nD τ).loc main_arg1)) :=
  (Keeps.agg2_keeps m ρ c main_v5 (by decide)).trans (at7_v5 m ρ c)
theorem at8_v6 (c : Dev nD) : W8 m ρ c (Proc.devRef .tc main_v6) = Cert.ReferenceIdeal.Read.val_main_v6 (F := Ideal) (m ((c : Thread nD τ).loc main_arg1)) :=
  (Keeps.agg2_keeps m ρ c main_v6 (by decide)).trans (at7_v6 m ρ c)
theorem at8_v38 (c : Dev nD) : W8 m ρ c (Proc.devRef .tc main_v38) = Cert.ReferenceIdeal.Read.val_main_v38 (F := Ideal) (m ((c : Thread nD τ).loc main_arg1)) (m ((c : Thread nD τ).loc main_arg3)) :=
  (Keeps.agg2_keeps m ρ c main_v38 (by decide)).trans (at7_v38 m ρ c)
theorem at8_arg2 (c : Dev nD) : W8 m ρ c (Proc.devRef .tc main_arg2) = (m ((c : Thread nD τ).loc main_arg2)) :=
  (Keeps.agg2_keeps m ρ c main_arg2 (by decide)).trans (at7_arg2 m ρ c)
theorem at8_arg8 (c : Dev nD) : W8 m ρ c (Proc.devRef .tc main_arg8) = (m ((c : Thread nD τ).loc main_arg8)) :=
  (Keeps.agg2_keeps m ρ c main_arg8 (by decide)).trans (at7_arg8 m ρ c)
theorem at8_arg9 (c : Dev nD) : W8 m ρ c (Proc.devRef .tc main_arg9) = (m ((c : Thread nD τ).loc main_arg9)) :=
  (Keeps.agg2_keeps m ρ c main_arg9 (by decide)).trans (at7_arg9 m ρ c)
theorem at8_arg10 (c : Dev nD) : W8 m ρ c (Proc.devRef .tc main_arg10) = (m ((c : Thread nD τ).loc main_arg10)) :=
  (Keeps.agg2_keeps m ρ c main_arg10 (by decide)).trans (at7_arg10 m ρ c)
theorem at8_arg11 (c : Dev nD) : W8 m ρ c (Proc.devRef .tc main_arg11) = (m ((c : Thread nD τ).loc main_arg11)) :=
  (Keeps.agg2_keeps m ρ c main_arg11 (by decide)).trans (at7_arg11 m ρ c)

/-! ## At the third launch -/

/-- The second hidden layer. -/
theorem at9_v74 (c : Dev nD) : W9 m ρ c (Proc.devRef .tc main_v74) = Cert.ReferenceIdeal.Read.val_main_v74 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) := by
  refine (Calls.relu2_call (W8 m ρ c)).trans ?_
  rw [at8_v73 m ρ c]
  rfl
theorem at9_v5 (c : Dev nD) : W9 m ρ c (Proc.devRef .tc main_v5) = Cert.ReferenceIdeal.Read.val_main_v5 (F := Ideal) (m ((c : Thread nD τ).loc main_arg1)) :=
  (Keeps.relu2_keeps m ρ c main_v5 (by decide)).trans (at8_v5 m ρ c)
theorem at9_v6 (c : Dev nD) : W9 m ρ c (Proc.devRef .tc main_v6) = Cert.ReferenceIdeal.Read.val_main_v6 (F := Ideal) (m ((c : Thread nD τ).loc main_arg1)) :=
  (Keeps.relu2_keeps m ρ c main_v6 (by decide)).trans (at8_v6 m ρ c)
theorem at9_v38 (c : Dev nD) : W9 m ρ c (Proc.devRef .tc main_v38) = Cert.ReferenceIdeal.Read.val_main_v38 (F := Ideal) (m ((c : Thread nD τ).loc main_arg1)) (m ((c : Thread nD τ).loc main_arg3)) :=
  (Keeps.relu2_keeps m ρ c main_v38 (by decide)).trans (at8_v38 m ρ c)
theorem at9_arg2 (c : Dev nD) : W9 m ρ c (Proc.devRef .tc main_arg2) = (m ((c : Thread nD τ).loc main_arg2)) :=
  (Keeps.relu2_keeps m ρ c main_arg2 (by decide)).trans (at8_arg2 m ρ c)
theorem at9_arg8 (c : Dev nD) : W9 m ρ c (Proc.devRef .tc main_arg8) = (m ((c : Thread nD τ).loc main_arg8)) :=
  (Keeps.relu2_keeps m ρ c main_arg8 (by decide)).trans (at8_arg8 m ρ c)
theorem at9_arg9 (c : Dev nD) : W9 m ρ c (Proc.devRef .tc main_arg9) = (m ((c : Thread nD τ).loc main_arg9)) :=
  (Keeps.relu2_keeps m ρ c main_arg9 (by decide)).trans (at8_arg9 m ρ c)
theorem at9_arg10 (c : Dev nD) : W9 m ρ c (Proc.devRef .tc main_arg10) = (m ((c : Thread nD τ).loc main_arg10)) :=
  (Keeps.relu2_keeps m ρ c main_arg10 (by decide)).trans (at8_arg10 m ρ c)
theorem at9_arg11 (c : Dev nD) : W9 m ρ c (Proc.devRef .tc main_arg11) = (m ((c : Thread nD τ).loc main_arg11)) :=
  (Keeps.relu2_keeps m ρ c main_arg11 (by decide)).trans (at8_arg11 m ρ c)

end Cert.KernelIdeal.Chain

end
-- ==== Proof.Chain3.lean ====
/-
  The third layer, the mean pooling, the classifier and its bias.

  After the third launch the aggregation is followed by the pooling: the rows of each graph summed and divided by the
  graph's node count (at least one). The last launch multiplies the pooled rows by the classifier weight, and the
  tail adds the bias: the program's result is the reference's `v106` of the same argument arrays.
-/
import proofs.«121246_j22273700397228_1_alg».proof.Proof.Gen.KernelIdeal.Frame
import proofs.«121246_j22273700397228_1_alg».proof.Proof.Gen.ReferenceIdeal.Read
import proofs.«121246_j22273700397228_1_alg».proof.Proof.Keeps
import proofs.«121246_j22273700397228_1_alg».proof.Proof.Calls
import proofs.«121246_j22273700397228_1_alg».proof.Proof.Spec
import proofs.«121246_j22273700397228_1_alg».proof.Proof.Layer3
import proofs.«121246_j22273700397228_1_alg».proof.Proof.Classifier
import proofs.«121246_j22273700397228_1_alg».proof.Proof.Chain2

set_option maxRecDepth 16384

noncomputable section

namespace Cert.KernelIdeal.Chain

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg)

/-! ## After the third launch -/

/-- The third layer's linear map. -/
theorem at10_v75 (c : Dev nD) : W10 m ρ c (Proc.devRef .tc main_v75) = Cert.ReferenceIdeal.Read.val_main_v75 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W10_arr m ρ c 2).trans ((Layer3.product (V9 m ρ) c).trans ?_)
  show Cert.Spec.feat (W9 m ρ c (Proc.devRef .tc main_v74)) (W9 m ρ c (Proc.devRef .tc main_arg8)) = _
  rw [at9_v74 m ρ c, at9_arg8 m ρ c]
  rfl
theorem at10_v5 (c : Dev nD) : W10 m ρ c (Proc.devRef .tc main_v5) = Cert.ReferenceIdeal.Read.val_main_v5 (F := Ideal) (m ((c : Thread nD τ).loc main_arg1)) :=
  (W10_of_ne m ρ c main_v5 (by decide)).trans (at9_v5 m ρ c)
theorem at10_v6 (c : Dev nD) : W10 m ρ c (Proc.devRef .tc main_v6) = Cert.ReferenceIdeal.Read.val_main_v6 (F := Ideal) (m ((c : Thread nD τ).loc main_arg1)) :=
  (W10_of_ne m ρ c main_v6 (by decide)).trans (at9_v6 m ρ c)
theorem at10_v38 (c : Dev nD) : W10 m ρ c (Proc.devRef .tc main_v38) = Cert.ReferenceIdeal.Read.val_main_v38 (F := Ideal) (m ((c : Thread nD τ).loc main_arg1)) (m ((c : Thread nD τ).loc main_arg3)) :=
  (W10_of_ne m ρ c main_v38 (by decide)).trans (at9_v38 m ρ c)
theorem at10_arg2 (c : Dev nD) : W10 m ρ c (Proc.devRef .tc main_arg2) = (m ((c : Thread nD τ).loc main_arg2)) :=
  (W10_of_ne m ρ c main_arg2 (by decide)).trans (at9_arg2 m ρ c)
theorem at10_arg9 (c : Dev nD) : W10 m ρ c (Proc.devRef .tc main_arg9) = (m ((c : Thread nD τ).loc main_arg9)) :=
  (W10_of_ne m ρ c main_arg9 (by decide)).trans (at9_arg9 m ρ c)
theorem at10_arg10 (c : Dev nD) : W10 m ρ c (Proc.devRef .tc main_arg10) = (m ((c : Thread nD τ).loc main_arg10)) :=
  (W10_of_ne m ρ c main_arg10 (by decide)).trans (at9_arg10 m ρ c)
theorem at10_arg11 (c : Dev nD) : W10 m ρ c (Proc.devRef .tc main_arg11) = (m ((c : Thread nD τ).loc main_arg11)) :=
  (W10_of_ne m ρ c main_arg11 (by decide)).trans (at9_arg11 m ρ c)

/-! ## At the last launch -/

/-- The pooled features: per graph, the mean of its nodes' third-layer rows. -/
theorem at11_v102 (c : Dev nD) : W11 m ρ c (Proc.devRef .tc main_v102) = Cert.ReferenceIdeal.Read.val_main_v102 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  have key : ∀ V : Valuation τ sig (Elt Ideal), V (Proc.devRef .tc main_v38) = Cert.ReferenceIdeal.Read.val_main_v38 (F := Ideal) (m ((c : Thread nD τ).loc main_arg1)) (m ((c : Thread nD τ).loc main_arg3)) → V (Proc.devRef .tc main_v5) = Cert.ReferenceIdeal.Read.val_main_v5 (F := Ideal) (m ((c : Thread nD τ).loc main_arg1)) → V (Proc.devRef .tc main_v75) = Cert.ReferenceIdeal.Read.val_main_v75 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) → V (Proc.devRef .tc main_v6) = Cert.ReferenceIdeal.Read.val_main_v6 (F := Ideal) (m ((c : Thread nD τ).loc main_arg1)) → V (Proc.devRef .tc main_arg9) = (m ((c : Thread nD τ).loc main_arg9)) → V (Proc.devRef .tc main_arg2) = (m ((c : Thread nD τ).loc main_arg2)) →
      StableHlo.after hostOps3 V (Proc.devRef .tc main_v102) = Cert.ReferenceIdeal.Read.val_main_v102 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
    intro V h0 h1 h2 h3 h4 h5
    dsimp only [hostOps3]
    after_results_simp
    rw [h0, h1, h2, h3, h4, h5]
    rfl
  exact key (W10 m ρ c) (at10_v38 m ρ c) (at10_v5 m ρ c) (at10_v75 m ρ c) (at10_v6 m ρ c) (at10_arg9 m ρ c) (at10_arg2 m ρ c)
theorem at11_arg10 (c : Dev nD) : W11 m ρ c (Proc.devRef .tc main_arg10) = (m ((c : Thread nD τ).loc main_arg10)) :=
  (Keeps.pool_keeps m ρ c main_arg10 (by decide)).trans (at10_arg10 m ρ c)
theorem at11_arg11 (c : Dev nD) : W11 m ρ c (Proc.devRef .tc main_arg11) = (m ((c : Thread nD τ).loc main_arg11)) :=
  (Keeps.pool_keeps m ρ c main_arg11 (by decide)).trans (at10_arg11 m ρ c)

/-! ## After the last launch -/

/-- The classifier's linear map. -/
theorem at12_v103 (c : Dev nD) : W12 m ρ c (Proc.devRef .tc main_v103) = Cert.ReferenceIdeal.Read.val_main_v103 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W12_arr m ρ c 2).trans ((Classifier.product (V11 m ρ) c).trans ?_)
  show Cert.Spec.logits (W11 m ρ c (Proc.devRef .tc main_v102)) (W11 m ρ c (Proc.devRef .tc main_arg10)) = _
  rw [at11_v102 m ρ c, at11_arg10 m ρ c]
  rfl
theorem at12_arg11 (c : Dev nD) : W12 m ρ c (Proc.devRef .tc main_arg11) = (m ((c : Thread nD τ).loc main_arg11)) :=
  (W12_of_ne m ρ c main_arg11 (by decide)).trans (at11_arg11 m ρ c)

/-! ## The result -/

/-- THE RESULT BUFFER at the end of the program is the reference's result of the same argument arrays. -/
theorem at13_v106 (c : Dev nD) : W13 m ρ c (Proc.devRef .tc main_v106) = Cert.ReferenceIdeal.Read.val_main_v106 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  have key : ∀ V : Valuation τ sig (Elt Ideal), V (Proc.devRef .tc main_arg11) = (m ((c : Thread nD τ).loc main_arg11)) → V (Proc.devRef .tc main_v103) = Cert.ReferenceIdeal.Read.val_main_v103 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) →
      StableHlo.after hostOps4 V (Proc.devRef .tc main_v106) = Cert.ReferenceIdeal.Read.val_main_v106 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
    intro V h0 h1
    dsimp only [hostOps4]
    after_results_simp
    rw [h0, h1]
    rfl
  exact key (W12 m ρ c) (at12_arg11 m ρ c) (at12_v103 m ρ c)

end Cert.KernelIdeal.Chain

end
-- ==== Proof.lean ====
/-
  A three-layer graph convolution with mean pooling and a linear classifier: the kernel against its reference.

  The two programs are the same host computation — self loops appended to the edge lists, logistic edge weights,
  degrees by a scatter-add, the symmetric normalisation `dis[fr] · w · dis[fc]`, and per layer a linear map followed by
  gather / scale / scatter-add / bias (and `relu` after the first two), then the per-graph mean and the classifier —
  except for the four linear maps. The reference computes each as one matrix product; the kernel launches a tiled
  product that rounds both operands to bf16 and accumulates in f32, ten blocks of 5000 rows for each hidden layer and a
  single block for the classifier. Read over the extended reals the rounding is the identity and a product into a
  zero accumulator is the textbook sum, so every block of a launch's result is the corresponding block of rows of the
  whole product, and the blocks tile the result (the layer modules). The buffers of the kernel's run are then
  followed from boundary to boundary: at each one, every buffer that is read later holds the value the reference's
  run computes for the same statement (the chain modules), down to the result buffer. No finiteness is needed: the
  two sides are the same sums of the same products in the same order.

  The three frames are the generated ones (the reference's is its generated run with the value dropped); the
  idealization rewrote nothing, so `preserves` is trivial.
-/
import proofs.«121246_j22273700397228_1_alg».proof.Defs
import proofs.«121246_j22273700397228_1_alg».proof.Proof.Gen.Kernel
import proofs.«121246_j22273700397228_1_alg».proof.Proof.Gen.Kernel.Skeleton
import proofs.«121246_j22273700397228_1_alg».proof.Proof.Gen.Kernel.Launch
import proofs.«121246_j22273700397228_1_alg».proof.Proof.Gen.Kernel.Points
import proofs.«121246_j22273700397228_1_alg».proof.Proof.Gen.Kernel.Frame
import proofs.«121246_j22273700397228_1_alg».proof.Proof.Gen.KernelIdeal
import proofs.«121246_j22273700397228_1_alg».proof.Proof.Gen.KernelIdeal.Skeleton
import proofs.«121246_j22273700397228_1_alg».proof.Proof.Gen.KernelIdeal.Launch
import proofs.«121246_j22273700397228_1_alg».proof.Proof.Gen.KernelIdeal.Points
import proofs.«121246_j22273700397228_1_alg».proof.Proof.Gen.KernelIdeal.Frame
import proofs.«121246_j22273700397228_1_alg».proof.Proof.Gen.ReferenceIdeal
import proofs.«121246_j22273700397228_1_alg».proof.Proof.Gen.Pre_finite_inputs
import proofs.«121246_j22273700397228_1_alg».proof.Proof.Gen.ReferenceIdeal.Run
import proofs.«121246_j22273700397228_1_alg».proof.Proof.Gen.ReferenceIdeal.Read
import proofs.«121246_j22273700397228_1_alg».proof.Proof.Ends
import proofs.«121246_j22273700397228_1_alg».proof.Proof.Chain3
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_ideal : Cert.frame_KernelIdeal := fun m ρ _ => Cert.KernelIdeal.Gen.frame m ρ

/-- The reference's run, its value dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the twelve arguments both programs end with the result buffer at the reference's
    result of those arguments: the kernel's by the chain of boundary facts read off its final memory, the reference's
    by its generated run. -/
theorem algebraic : Cert.algebraic_KernelIdeal_ReferenceIdeal := by
  intro m g m' g' _ hagree
  refine ⟨fun c => Cert.ReferenceIdeal.Read.val_main_v106 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact Cert.KernelIdeal.Ends.ends_at m g fun s h c =>
      ⟨(h c _ (Cert.KernelIdeal.Gen.mem_uc Cert.KernelIdeal.main_v106 (by decide))).trans (Cert.KernelIdeal.Chain.at13_v106 m g c),
       (h c _ (Cert.KernelIdeal.Gen.mem_uc Cert.KernelIdeal.main_arg0 (by decide))).trans (Cert.KernelIdeal.Gen.W13_main_arg0 m g c),
       (h c _ (Cert.KernelIdeal.Gen.mem_uc Cert.KernelIdeal.main_arg1 (by decide))).trans (Cert.KernelIdeal.Gen.W13_main_arg1 m g c),
       (h c _ (Cert.KernelIdeal.Gen.mem_uc Cert.KernelIdeal.main_arg2 (by decide))).trans (Cert.KernelIdeal.Gen.W13_main_arg2 m g c),
       (h c _ (Cert.KernelIdeal.Gen.mem_uc Cert.KernelIdeal.main_arg3 (by decide))).trans (Cert.KernelIdeal.Gen.W13_main_arg3 m g c),
       (h c _ (Cert.KernelIdeal.Gen.mem_uc Cert.KernelIdeal.main_arg4 (by decide))).trans (Cert.KernelIdeal.Gen.W13_main_arg4 m g c),
       (h c _ (Cert.KernelIdeal.Gen.mem_uc Cert.KernelIdeal.main_arg5 (by decide))).trans (Cert.KernelIdeal.Gen.W13_main_arg5 m g c),
       (h c _ (Cert.KernelIdeal.Gen.mem_uc Cert.KernelIdeal.main_arg6 (by decide))).trans (Cert.KernelIdeal.Gen.W13_main_arg6 m g c),
       (h c _ (Cert.KernelIdeal.Gen.mem_uc Cert.KernelIdeal.main_arg7 (by decide))).trans (Cert.KernelIdeal.Gen.W13_main_arg7 m g c),
       (h c _ (Cert.KernelIdeal.Gen.mem_uc Cert.KernelIdeal.main_arg8 (by decide))).trans (Cert.KernelIdeal.Gen.W13_main_arg8 m g c),
       (h c _ (Cert.KernelIdeal.Gen.mem_uc Cert.KernelIdeal.main_arg9 (by decide))).trans (Cert.KernelIdeal.Gen.W13_main_arg9 m g c),
       (h c _ (Cert.KernelIdeal.Gen.mem_uc Cert.KernelIdeal.main_arg10 (by decide))).trans (Cert.KernelIdeal.Gen.W13_main_arg10 m g c),
       (h c _ (Cert.KernelIdeal.Gen.mem_uc Cert.KernelIdeal.main_arg11 (by decide))).trans (Cert.KernelIdeal.Gen.W13_main_arg11 m g c)⟩
  · refine (θ_run Cert.ReferenceIdeal.defs _ _).mono (fun _ h c => ⟨(h c).1.trans ?_, (h c).2⟩) (Cert.ReferenceIdeal.Value.run (F := Ideal) m' g')
    obtain ⟨h0, h1, h2, h3, h4, h5, h6, h7, h8, h9, h10, h11⟩ := hagree c
    rw [Cert.ReferenceIdeal.Read.val_main_v106_eq, h0, h1, h2, h3, h4, h5, h6, h7, h8, h9, h10, h11]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
